-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v292)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v292) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v337) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x150000 : Shape := ⟨2, ![2, 150000]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S4x512x512 : Shape := ⟨3, ![4, 512, 512]⟩
abbrev S4x512 : Shape := ⟨2, ![4, 512]⟩
abbrev S5x512 : Shape := ⟨2, ![5, 512]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S5x512 : S_.BroadcastsInDim S5x512 (![] : Fin 0 → Fin S5x512.rank)
  reducesTo_S5x512_S_d0_1 : S5x512.ReducesTo [0, 1] S_

variable [Facts]

def fn_part3 {F : FTy → Type} [FloatOps F] (main_arg13 : FVec F S512x512 .f32) (main_arg14 : FVec F S512 .f32) (main_v48 : IVec S_ 1) (main_v49 : FVec F S5x512 .f32) (main_v50 : FVec F S5x512 .f32) : IVec S_ 1 :=
  let main_v51 : IVec S5x512 1 := cmpf .olt main_v49 main_v50
  let main_c_19 : IVec S_ 1 := constantI S_ 1 1#1
  let main_v52 : IVec S_ 1 := (fun x v => Host.reduce IntOp.andi x v reducesTo_S5x512_S_d0_1 h_S_) main_v51 main_c_19
  let main_v53 : IVec S_ 1 := andi main_v48 main_v52
  let main_v54 : FVec F S512x512 .f32 := Host.absf main_arg13
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg9 : FVec F S4x512x512 .f32) (main_arg10 : FVec F S4x512 .f32) (main_arg11 : FVec F S5x512 .f32) (main_arg12 : FVec F S5x512 .f32) (main_arg13 : FVec F S512x512 .f32) (main_arg14 : FVec F S512 .f32) (main_v33 : IVec S_ 1) : IVec S_ 1 :=
  let main_v34 : FVec F S4x512x512 .f32 := Host.absf main_arg9
  let main_cst_12 : FVec F S_ .f32 := constant S_ .f32 0x7F800000#32
  let main_v35 : FVec F S4x512x512 .f32 := broadcastInDim S4x512x512 ![] bcast_S_S4x512x512 main_cst_12
  let main_v36 : IVec S4x512x512 1 := cmpf .olt main_v34 main_v35
  let main_c_13 : IVec S_ 1 := constantI S_ 1 1#1
  let main_v37 : IVec S_ 1 := (fun x v => Host.reduce IntOp.andi x v reducesTo_S4x512x512_S_d0_1_2 h_S_) main_v36 main_c_13
  let main_v38 : IVec S_ 1 := andi main_v33 main_v37
  let main_v39 : FVec F S4x512 .f32 := Host.absf main_arg10
  let main_cst_14 : FVec F S_ .f32 := constant S_ .f32 0x7F800000#32
  let main_v40 : FVec F S4x512 .f32 := broadcastInDim S4x512 ![] bcast_S_S4x512 main_cst_14
  let main_v41 : IVec S4x512 1 := cmpf .olt main_v39 main_v40
  let main_c_15 : IVec S_ 1 := constantI S_ 1 1#1
  let main_v42 : IVec S_ 1 := (fun x v => Host.reduce IntOp.andi x v reducesTo_S4x512_S_d0_1 h_S_) main_v41 main_c_15
  let main_v43 : IVec S_ 1 := andi main_v38 main_v42
  let main_v44 : FVec F S5x512 .f32 := Host.absf main_arg11
  let main_cst_16 : FVec F S_ .f32 := constant S_ .f32 0x7F800000#32
  let main_v45 : FVec F S5x512 .f32 := broadcastInDim S5x512 ![] bcast_S_S5x512 main_cst_16
  let main_v46 : IVec S5x512 1 := cmpf .olt main_v44 main_v45
  let main_c_17 : IVec S_ 1 := constantI S_ 1 1#1
  let main_v47 : IVec S_ 1 := (fun x v => Host.reduce IntOp.andi x v reducesTo_S5x512_S_d0_1 h_S_) main_v46 main_c_17
  let main_v48 : IVec S_ 1 := andi main_v43 main_v47
  let main_v49 : FVec F S5x512 .f32 := Host.absf main_arg12
  let main_cst_18 : FVec F S_ .f32 := constant S_ .f32 0x7F800000#32
  let main_v50 : FVec F S5x512 .f32 := broadcastInDim S5x512 ![] bcast_S_S5x512 main_cst_18
  fn_part3 (F := F) main_arg13 main_arg14 main_v48 main_v49 main_v50

def fn_part1 {F : FTy → Type} [FloatOps F] (main_arg6 : FVec F S512 .f32) (main_arg7 : FVec F S4x512x512 .f32) (main_arg8 : FVec F S4x512 .f32) (main_arg9 : FVec F S4x512x512 .f32) (main_arg10 : FVec F S4x512 .f32) (main_arg11 : FVec F S5x512 .f32) (main_arg12 : FVec F S5x512 .f32) (main_arg13 : FVec F S512x512 .f32) (main_arg14 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S4x512x512 .f32 := Host.absf main_arg7
  let main_cst_8 : FVec F S_ .f32 := constant S_ .f32 0x7F800000#32
  let main_v25 : FVec F S4x512x512 .f32 := broadcastInDim S4x512x512 ![] bcast_S_S4x512x512 main_cst_8
  let main_v26 : IVec S4x512x512 1 := cmpf .olt main_v24 main_v25
  let main_c_9 : IVec S_ 1 := constantI S_ 1 1#1
  let main_v27 : IVec S_ 1 := (fun x v => Host.reduce IntOp.andi x v reducesTo_S4x512x512_S_d0_1_2 h_S_) main_v26 main_c_9
  let main_v28 : IVec S_ 1 := andi main_v23 main_v27
  let main_v29 : FVec F S4x512 .f32 := Host.absf main_arg8
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x150000 32) (main_arg2 : IVec S50000 32) (main_arg3 : FVec F S128x512 .f32) (main_arg4 : FVec F S512 .f32) (main_arg5 : FVec F S512x512 .f32) (main_arg6 : FVec F S512 .f32) (main_arg7 : FVec F S4x512x512 .f32) (main_arg8 : FVec F S4x512 .f32) (main_arg9 : FVec F S4x512x512 .f32) (main_arg10 : FVec F S4x512 .f32) (main_arg11 : FVec F S5x512 .f32) (main_arg12 : FVec F S5x512 .f32) (main_arg13 : FVec F S512x512 .f32) (main_arg14 : FVec F S512 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x150000 : Shape := ⟨2, ![2, 150000]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S4x512x512 : Shape := ⟨3, ![4, 512, 512]⟩
abbrev S4x512 : Shape := ⟨2, ![4, 512]⟩
abbrev S5x512 : Shape := ⟨2, ![5, 512]⟩
abbrev S1x150000 : Shape := ⟨2, ![1, 150000]⟩
abbrev S150000 : Shape := ⟨1, ![150000]⟩
abbrev S1x512 : Shape := ⟨2, ![1, 512]⟩
abbrev S_ : Shape := ⟨0, ![]⟩
abbrev S150000x1 : Shape := ⟨2, ![150000, 1]⟩
abbrev S150000x128 : Shape := ⟨2, ![150000, 128]⟩
abbrev S50000x512 : Shape := ⟨2, ![50000, 512]⟩
abbrev S2000x128 : Shape := ⟨2, ![2000, 128]⟩
abbrev S2000x512 : Shape := ⟨2, ![2000, 512]⟩
abbrev S1x512x512 : Shape := ⟨3, ![1, 512, 512]⟩
abbrev S150000x512 : Shape := ⟨2, ![150000, 512]⟩
abbrev S256x512 : Shape := ⟨2, ![256, 512]⟩
abbrev S50000x1 : Shape := ⟨2, ![50000, 1]⟩
abbrev S256 : Shape := ⟨1, ![256]⟩
abbrev S256x1 : Shape := ⟨2, ![256, 1]⟩

abbrev nBuf : Space → Nat
  | .hbm => 362
  | .vmem => 40
  | .smem => 0
  | _ => 0

abbrev hbmTy0_0 (i : Nat) : BufTy := match i % 128 with
  | 0 => ⟨S50000x128, .f32⟩
  | 1 => ⟨S2x150000, .i32⟩
  | 2 => ⟨S50000, .i32⟩
  | 3 => ⟨S128x512, .f32⟩
  | 4 => ⟨S512, .f32⟩
  | 5 => ⟨S512x512, .f32⟩
  | 6 => ⟨S512, .f32⟩
  | 7 => ⟨S4x512x512, .f32⟩
  | 8 => ⟨S4x512, .f32⟩
  | 9 => ⟨S4x512x512, .f32⟩
  | 10 => ⟨S4x512, .f32⟩
  | 11 => ⟨S5x512, .f32⟩
  | 12 => ⟨S5x512, .f32⟩
  | 13 => ⟨S512x512, .f32⟩
  | 14 => ⟨S512, .f32⟩
  | 15 => ⟨S1x150000, .i32⟩
  | 16 => ⟨S150000, .i32⟩
  | 17 => ⟨S1x150000, .i32⟩
  | 18 => ⟨S150000, .i32⟩
  | 19 => ⟨S1x512, .f32⟩
  | 20 => ⟨S512, .f32⟩
  | 21 => ⟨S1x512, .f32⟩
  | 22 => ⟨S512, .f32⟩
  | 23 => ⟨S_, .f32⟩
  | 24 => ⟨S50000x128, .f32⟩
  | 25 => ⟨S_, .i32⟩
  | 26 => ⟨S150000, .i32⟩
  | 27 => ⟨S150000, .i1⟩
  | 28 => ⟨S_, .i32⟩
  | 29 => ⟨S150000, .i32⟩
  | 30 => ⟨S150000, .i32⟩
  | 31 => ⟨S150000, .i32⟩
  | 32 => ⟨S150000x1, .i32⟩
  | 33 => ⟨S150000x128, .f32⟩
  | 34 => ⟨S_, .i32⟩
  | 35 => ⟨S150000, .i32⟩
  | 36 => ⟨S150000, .i1⟩
  | 37 => ⟨S_, .i32⟩
  | 38 => ⟨S150000, .i32⟩
  | 39 => ⟨S150000, .i32⟩
  | 40 => ⟨S150000, .i32⟩
  | 41 => ⟨S150000x1, .i32⟩
  | 42 => ⟨S50000x128, .f32⟩
  | 43 => ⟨S50000x128, .f32⟩
  | 44 => ⟨S1x512, .f32⟩
  | 45 => ⟨S1x512, .f32⟩
  | 46 => ⟨S50000x512, .f32⟩
  | 47 => ⟨S_, .f32⟩
  | 48 => ⟨S512, .f32⟩
  | 49 => ⟨S_, .f32⟩
  | 50 => ⟨S512, .f32⟩
  | 51 => ⟨S512, .f32⟩
  | 52 => ⟨S1x512, .f32⟩
  | 53 => ⟨S50000x512, .f32⟩
  | 54 => ⟨S50000x512, .f32⟩
  | 55 => ⟨S50000x512, .f32⟩
  | 56 => ⟨S_, .f32⟩
  | 57 => ⟨S512, .f32⟩
  | 58 => ⟨S_, .f32⟩
  | 59 => ⟨S512, .f32⟩
  | 60 => ⟨S512, .f32⟩
  | 61 => ⟨S1x512, .f32⟩
  | 62 => ⟨S50000x512, .f32⟩
  | 63 => ⟨S50000x512, .f32⟩
  | 64 => ⟨S1x512, .f32⟩
  | 65 => ⟨S50000x512, .f32⟩
  | 66 => ⟨S50000x512, .f32⟩
  | 67 => ⟨S_, .f32⟩
  | 68 => ⟨S512, .f32⟩
  | 69 => ⟨S512, .f32⟩
  | 70 => ⟨S512, .f32⟩
  | 71 => ⟨S1x512, .f32⟩
  | 72 => ⟨S50000x512, .f32⟩
  | 73 => ⟨S50000x512, .f32⟩
  | 74 => ⟨S1x512, .f32⟩
  | 75 => ⟨S50000x512, .f32⟩
  | 76 => ⟨S50000x512, .f32⟩
  | 77 => ⟨S1x512x512, .f32⟩
  | 78 => ⟨S512x512, .f32⟩
  | 79 => ⟨S1x512, .f32⟩
  | 80 => ⟨S512, .f32⟩
  | 81 => ⟨S1x512x512, .f32⟩
  | 82 => ⟨S512x512, .f32⟩
  | 83 => ⟨S1x512, .f32⟩
  | 84 => ⟨S512, .f32⟩
  | 85 => ⟨S1x512, .f32⟩
  | 86 => ⟨S512, .f32⟩
  | 87 => ⟨S1x512, .f32⟩
  | 88 => ⟨S512, .f32⟩
  | 89 => ⟨S_, .f32⟩
  | 90 => ⟨S50000x512, .f32⟩
  | 91 => ⟨S_, .i32⟩
  | 92 => ⟨S150000, .i32⟩
  | 93 => ⟨S150000, .i1⟩
  | 94 => ⟨S_, .i32⟩
  | 95 => ⟨S150000, .i32⟩
  | 96 => ⟨S150000, .i32⟩
  | 97 => ⟨S150000, .i32⟩
  | 98 => ⟨S150000x1, .i32⟩
  | 99 => ⟨S150000x512, .f32⟩
  | 100 => ⟨S_, .i32⟩
  | 101 => ⟨S150000, .i32⟩
  | 102 => ⟨S150000, .i1⟩
  | 103 => ⟨S_, .i32⟩
  | 104 => ⟨S150000, .i32⟩
  | 105 => ⟨S150000, .i32⟩
  | 106 => ⟨S150000, .i32⟩
  | 107 => ⟨S150000x1, .i32⟩
  | 108 => ⟨S50000x512, .f32⟩
  | 109 => ⟨S50000x512, .f32⟩
  | 110 => ⟨S1x512, .f32⟩
  | 111 => ⟨S1x512, .f32⟩
  | 112 => ⟨S50000x512, .f32⟩
  | 113 => ⟨S_, .f32⟩
  | 114 => ⟨S512, .f32⟩
  | 115 => ⟨S_, .f32⟩
  | 116 => ⟨S512, .f32⟩
  | 117 => ⟨S512, .f32⟩
  | 118 => ⟨S1x512, .f32⟩
  | 119 => ⟨S50000x512, .f32⟩
  | 120 => ⟨S50000x512, .f32⟩
  | 121 => ⟨S50000x512, .f32⟩
  | 122 => ⟨S_, .f32⟩
  | 123 => ⟨S512, .f32⟩
  | 124 => ⟨S_, .f32⟩
  | 125 => ⟨S512, .f32⟩
  | 126 => ⟨S512, .f32⟩
  | 127 => ⟨S1x512, .f32⟩
  | _ => ⟨S50000x128, .f32⟩

abbrev hbmTy0_1 (i : Nat) : BufTy := match i % 128 with
  | 0 => ⟨S50000x512, .f32⟩
  | 1 => ⟨S50000x512, .f32⟩
  | 2 => ⟨S1x512, .f32⟩
  | 3 => ⟨S50000x512, .f32⟩
  | 4 => ⟨S50000x512, .f32⟩
  | 5 => ⟨S_, .f32⟩
  | 6 => ⟨S512, .f32⟩
  | 7 => ⟨S512, .f32⟩
  | 8 => ⟨S512, .f32⟩
  | 9 => ⟨S1x512, .f32⟩
  | 10 => ⟨S50000x512, .f32⟩
  | 11 => ⟨S50000x512, .f32⟩
  | 12 => ⟨S1x512, .f32⟩
  | 13 => ⟨S50000x512, .f32⟩
  | 14 => ⟨S50000x512, .f32⟩
  | 15 => ⟨S1x512x512, .f32⟩
  | 16 => ⟨S512x512, .f32⟩
  | 17 => ⟨S1x512, .f32⟩
  | 18 => ⟨S512, .f32⟩
  | 19 => ⟨S1x512x512, .f32⟩
  | 20 => ⟨S512x512, .f32⟩
  | 21 => ⟨S1x512, .f32⟩
  | 22 => ⟨S512, .f32⟩
  | 23 => ⟨S1x512, .f32⟩
  | 24 => ⟨S512, .f32⟩
  | 25 => ⟨S1x512, .f32⟩
  | 26 => ⟨S512, .f32⟩
  | 27 => ⟨S_, .f32⟩
  | 28 => ⟨S50000x512, .f32⟩
  | 29 => ⟨S_, .i32⟩
  | 30 => ⟨S150000, .i32⟩
  | 31 => ⟨S150000, .i1⟩
  | 32 => ⟨S_, .i32⟩
  | 33 => ⟨S150000, .i32⟩
  | 34 => ⟨S150000, .i32⟩
  | 35 => ⟨S150000, .i32⟩
  | 36 => ⟨S150000x1, .i32⟩
  | 37 => ⟨S150000x512, .f32⟩
  | 38 => ⟨S_, .i32⟩
  | 39 => ⟨S150000, .i32⟩
  | 40 => ⟨S150000, .i1⟩
  | 41 => ⟨S_, .i32⟩
  | 42 => ⟨S150000, .i32⟩
  | 43 => ⟨S150000, .i32⟩
  | 44 => ⟨S150000, .i32⟩
  | 45 => ⟨S150000x1, .i32⟩
  | 46 => ⟨S50000x512, .f32⟩
  | 47 => ⟨S50000x512, .f32⟩
  | 48 => ⟨S1x512, .f32⟩
  | 49 => ⟨S1x512, .f32⟩
  | 50 => ⟨S50000x512, .f32⟩
  | 51 => ⟨S_, .f32⟩
  | 52 => ⟨S512, .f32⟩
  | 53 => ⟨S_, .f32⟩
  | 54 => ⟨S512, .f32⟩
  | 55 => ⟨S512, .f32⟩
  | 56 => ⟨S1x512, .f32⟩
  | 57 => ⟨S50000x512, .f32⟩
  | 58 => ⟨S50000x512, .f32⟩
  | 59 => ⟨S50000x512, .f32⟩
  | 60 => ⟨S_, .f32⟩
  | 61 => ⟨S512, .f32⟩
  | 62 => ⟨S_, .f32⟩
  | 63 => ⟨S512, .f32⟩
  | 64 => ⟨S512, .f32⟩
  | 65 => ⟨S1x512, .f32⟩
  | 66 => ⟨S50000x512, .f32⟩
  | 67 => ⟨S50000x512, .f32⟩
  | 68 => ⟨S1x512, .f32⟩
  | 69 => ⟨S50000x512, .f32⟩
  | 70 => ⟨S50000x512, .f32⟩
  | 71 => ⟨S_, .f32⟩
  | 72 => ⟨S512, .f32⟩
  | 73 => ⟨S512, .f32⟩
  | 74 => ⟨S512, .f32⟩
  | 75 => ⟨S1x512, .f32⟩
  | 76 => ⟨S50000x512, .f32⟩
  | 77 => ⟨S50000x512, .f32⟩
  | 78 => ⟨S1x512, .f32⟩
  | 79 => ⟨S50000x512, .f32⟩
  | 80 => ⟨S50000x512, .f32⟩
  | 81 => ⟨S1x512x512, .f32⟩
  | 82 => ⟨S512x512, .f32⟩
  | 83 => ⟨S1x512, .f32⟩
  | 84 => ⟨S512, .f32⟩
  | 85 => ⟨S1x512x512, .f32⟩
  | 86 => ⟨S512x512, .f32⟩
  | 87 => ⟨S1x512, .f32⟩
  | 88 => ⟨S512, .f32⟩
  | 89 => ⟨S1x512, .f32⟩
  | 90 => ⟨S512, .f32⟩
  | 91 => ⟨S1x512, .f32⟩
  | 92 => ⟨S512, .f32⟩
  | 93 => ⟨S_, .f32⟩
  | 94 => ⟨S50000x512, .f32⟩
  | 95 => ⟨S_, .i32⟩
  | 96 => ⟨S150000, .i32⟩
  | 97 => ⟨S150000, .i1⟩
  | 98 => ⟨S_, .i32⟩
  | 99 => ⟨S150000, .i32⟩
  | 100 => ⟨S150000, .i32⟩
  | 101 => ⟨S150000, .i32⟩
  | 102 => ⟨S150000x1, .i32⟩
  | 103 => ⟨S150000x512, .f32⟩
  | 104 => ⟨S_, .i32⟩
  | 105 => ⟨S150000, .i32⟩
  | 106 => ⟨S150000, .i1⟩
  | 107 => ⟨S_, .i32⟩
  | 108 => ⟨S150000, .i32⟩
  | 109 => ⟨S150000, .i32⟩
  | 110 => ⟨S150000, .i32⟩
  | 111 => ⟨S150000x1, .i32⟩
  | 112 => ⟨S50000x512, .f32⟩
  | 113 => ⟨S50000x512, .f32⟩
  | 114 => ⟨S1x512, .f32⟩
  | 115 => ⟨S1x512, .f32⟩
  | 116 => ⟨S50000x512, .f32⟩
  | 117 => ⟨S_, .f32⟩
  | 118 => ⟨S512, .f32⟩
  | 119 => ⟨S_, .f32⟩
  | 120 => ⟨S512, .f32⟩
  | 121 => ⟨S512, .f32⟩
  | 122 => ⟨S1x512, .f32⟩
  | 123 => ⟨S50000x512, .f32⟩
  | 124 => ⟨S50000x512, .f32⟩
  | 125 => ⟨S50000x512, .f32⟩
  | 126 => ⟨S_, .f32⟩
  | 127 => ⟨S512, .f32⟩
  | _ => ⟨S50000x128, .f32⟩

abbrev hbmTy0_2 (i : Nat) : BufTy := match i % 128 with
  | 0 => ⟨S_, .f32⟩
  | 1 => ⟨S512, .f32⟩
  | 2 => ⟨S512, .f32⟩
  | 3 => ⟨S1x512, .f32⟩
  | 4 => ⟨S50000x512, .f32⟩
  | 5 => ⟨S50000x512, .f32⟩
  | 6 => ⟨S1x512, .f32⟩
  | 7 => ⟨S50000x512, .f32⟩
  | 8 => ⟨S50000x512, .f32⟩
  | 9 => ⟨S_, .f32⟩
  | 10 => ⟨S512, .f32⟩
  | 11 => ⟨S512, .f32⟩
  | 12 => ⟨S512, .f32⟩
  | 13 => ⟨S1x512, .f32⟩
  | 14 => ⟨S50000x512, .f32⟩
  | 15 => ⟨S50000x512, .f32⟩
  | 16 => ⟨S1x512, .f32⟩
  | 17 => ⟨S50000x512, .f32⟩
  | 18 => ⟨S50000x512, .f32⟩
  | 19 => ⟨S1x512x512, .f32⟩
  | 20 => ⟨S512x512, .f32⟩
  | 21 => ⟨S1x512, .f32⟩
  | 22 => ⟨S512, .f32⟩
  | 23 => ⟨S1x512x512, .f32⟩
  | 24 => ⟨S512x512, .f32⟩
  | 25 => ⟨S1x512, .f32⟩
  | 26 => ⟨S512, .f32⟩
  | 27 => ⟨S1x512, .f32⟩
  | 28 => ⟨S512, .f32⟩
  | 29 => ⟨S1x512, .f32⟩
  | 30 => ⟨S512, .f32⟩
  | 31 => ⟨S_, .f32⟩
  | 32 => ⟨S50000x512, .f32⟩
  | 33 => ⟨S_, .i32⟩
  | 34 => ⟨S150000, .i32⟩
  | 35 => ⟨S150000, .i1⟩
  | 36 => ⟨S_, .i32⟩
  | 37 => ⟨S150000, .i32⟩
  | 38 => ⟨S150000, .i32⟩
  | 39 => ⟨S150000, .i32⟩
  | 40 => ⟨S150000x1, .i32⟩
  | 41 => ⟨S150000x512, .f32⟩
  | 42 => ⟨S_, .i32⟩
  | 43 => ⟨S150000, .i32⟩
  | 44 => ⟨S150000, .i1⟩
  | 45 => ⟨S_, .i32⟩
  | 46 => ⟨S150000, .i32⟩
  | 47 => ⟨S150000, .i32⟩
  | 48 => ⟨S150000, .i32⟩
  | 49 => ⟨S150000x1, .i32⟩
  | 50 => ⟨S50000x512, .f32⟩
  | 51 => ⟨S50000x512, .f32⟩
  | 52 => ⟨S1x512, .f32⟩
  | 53 => ⟨S1x512, .f32⟩
  | 54 => ⟨S50000x512, .f32⟩
  | 55 => ⟨S_, .f32⟩
  | 56 => ⟨S512, .f32⟩
  | 57 => ⟨S_, .f32⟩
  | 58 => ⟨S512, .f32⟩
  | 59 => ⟨S512, .f32⟩
  | 60 => ⟨S1x512, .f32⟩
  | 61 => ⟨S50000x512, .f32⟩
  | 62 => ⟨S50000x512, .f32⟩
  | 63 => ⟨S50000x512, .f32⟩
  | 64 => ⟨S_, .f32⟩
  | 65 => ⟨S512, .f32⟩
  | 66 => ⟨S_, .f32⟩
  | 67 => ⟨S512, .f32⟩
  | 68 => ⟨S512, .f32⟩
  | 69 => ⟨S1x512, .f32⟩
  | 70 => ⟨S50000x512, .f32⟩
  | 71 => ⟨S50000x512, .f32⟩
  | 72 => ⟨S1x512, .f32⟩
  | 73 => ⟨S50000x512, .f32⟩
  | 74 => ⟨S50000x512, .f32⟩
  | 75 => ⟨S_, .f32⟩
  | 76 => ⟨S512, .f32⟩
  | 77 => ⟨S512, .f32⟩
  | 78 => ⟨S512, .f32⟩
  | 79 => ⟨S1x512, .f32⟩
  | 80 => ⟨S50000x512, .f32⟩
  | 81 => ⟨S50000x512, .f32⟩
  | 82 => ⟨S1x512, .f32⟩
  | 83 => ⟨S50000x512, .f32⟩
  | 84 => ⟨S50000x512, .f32⟩
  | 85 => ⟨S_, .f32⟩
  | 86 => ⟨S256x512, .f32⟩
  | 87 => ⟨S50000x1, .i32⟩
  | 88 => ⟨S256x512, .f32⟩
  | 89 => ⟨S_, .f32⟩
  | 90 => ⟨S50000, .f32⟩
  | 91 => ⟨S_, .f32⟩
  | 92 => ⟨S256, .f32⟩
  | 93 => ⟨S50000x1, .i32⟩
  | 94 => ⟨S256, .f32⟩
  | 95 => ⟨S_, .f32⟩
  | 96 => ⟨S256, .f32⟩
  | 97 => ⟨S256, .f32⟩
  | 98 => ⟨S256x1, .f32⟩
  | 99 => ⟨S256x512, .f32⟩
  | 100 => ⟨S256x512, .f32⟩
  | 101 => ⟨S256x512, .f32⟩
  | 102 => ⟨S1x512, .f32⟩
  | 103 => ⟨S256x512, .f32⟩
  | 104 => ⟨S256x512, .f32⟩
  | 105 => ⟨S256x512, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S2000x512, .f32⟩
  | .local _ .vmem, ⟨18, _⟩ => ⟨S512x512, .f32⟩
  | .local _ .vmem, ⟨19, _⟩ => ⟨S1x512, .f32⟩
  | .local _ .vmem, ⟨20, _⟩ => ⟨S512x512, .f32⟩
  | .local _ .vmem, ⟨21, _⟩ => ⟨S1x512, .f32⟩
  | .local _ .vmem, ⟨22, _⟩ => ⟨S2000x512, .f32⟩
  | .local _ .vmem, ⟨23, _⟩ => ⟨S2000x512, .f32⟩
  | .local _ .vmem, ⟨24, _⟩ => ⟨S2000x512, .f32⟩
  | .local _ .vmem, ⟨25, _⟩ => ⟨S2000x512, .f32⟩
  | .local _ .vmem, ⟨26, _⟩ => ⟨S512x512, .f32⟩
  | .local _ .vmem, ⟨27, _⟩ => ⟨S1x512, .f32⟩
  | .local _ .vmem, ⟨28, _⟩ => ⟨S512x512, .f32⟩
  | .local _ .vmem, ⟨29, _⟩ => ⟨S1x512, .f32⟩
  | .local _ .vmem, ⟨30, _⟩ => ⟨S2000x512, .f32⟩
  | .local _ .vmem, ⟨31, _⟩ => ⟨S2000x512, .f32⟩
  | .local _ .vmem, ⟨32, _⟩ => ⟨S2000x512, .f32⟩
  | .local _ .vmem, ⟨33, _⟩ => ⟨S2000x512, .f32⟩
  | .local _ .vmem, ⟨34, _⟩ => ⟨S512x512, .f32⟩
  | .local _ .vmem, ⟨35, _⟩ => ⟨S1x512, .f32⟩
  | .local _ .vmem, ⟨36, _⟩ => ⟨S512x512, .f32⟩
  | .local _ .vmem, ⟨37, _⟩ => ⟨S1x512, .f32⟩
  | .local _ .vmem, ⟨38, _⟩ => ⟨S2000x512, .f32⟩
  | .local _ .vmem, ⟨39, _⟩ => ⟨S2000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_c_9 : Ref sig .tc := ⟨.hbm, 91, rfl⟩
abbrev main_v65 : Ref sig .tc := ⟨.hbm, 92, rfl⟩
abbrev main_v66 : Ref sig .tc := ⟨.hbm, 93, rfl⟩
abbrev main_c_10 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_11 : Ref sig .tc := ⟨.hbm, 100, rfl⟩
abbrev main_v72 : Ref sig .tc := ⟨.hbm, 101, rfl⟩
abbrev main_v73 : Ref sig .tc := ⟨.hbm, 102, rfl⟩
abbrev main_c_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_13 : Ref sig .tc := ⟨.hbm, 113, rfl⟩
abbrev main_v83 : Ref sig .tc := ⟨.hbm, 114, rfl⟩
abbrev main_cst_14 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_15 : Ref sig .tc := ⟨.hbm, 122, rfl⟩
abbrev main_v90 : Ref sig .tc := ⟨.hbm, 123, rfl⟩
abbrev main_cst_16 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_17 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_18 : Ref sig .tc := ⟨.hbm, 155, rfl⟩
abbrev main_v120 : Ref sig .tc := ⟨.hbm, 156, rfl⟩
abbrev main_c_19 : Ref sig .tc := ⟨.hbm, 157, rfl⟩
abbrev main_v121 : Ref sig .tc := ⟨.hbm, 158, rfl⟩
abbrev main_v122 : Ref sig .tc := ⟨.hbm, 159, rfl⟩
abbrev main_c_20 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_c_21 : Ref sig .tc := ⟨.hbm, 166, rfl⟩
abbrev main_v128 : Ref sig .tc := ⟨.hbm, 167, rfl⟩
abbrev main_v129 : Ref sig .tc := ⟨.hbm, 168, rfl⟩
abbrev main_c_22 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_23 : Ref sig .tc := ⟨.hbm, 179, rfl⟩
abbrev main_v139 : Ref sig .tc := ⟨.hbm, 180, rfl⟩
abbrev main_cst_24 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_25 : Ref sig .tc := ⟨.hbm, 188, rfl⟩
abbrev main_v146 : Ref sig .tc := ⟨.hbm, 189, rfl⟩
abbrev main_cst_26 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_27 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_cst_28 : Ref sig .tc := ⟨.hbm, 221, rfl⟩
abbrev main_v176 : Ref sig .tc := ⟨.hbm, 222, rfl⟩
abbrev main_c_29 : Ref sig .tc := ⟨.hbm, 223, rfl⟩
abbrev main_v177 : Ref sig .tc := ⟨.hbm, 224, rfl⟩
abbrev main_v178 : Ref sig .tc := ⟨.hbm, 225, rfl⟩
abbrev main_c_30 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_c_31 : Ref sig .tc := ⟨.hbm, 232, rfl⟩
abbrev main_v184 : Ref sig .tc := ⟨.hbm, 233, rfl⟩
abbrev main_v185 : Ref sig .tc := ⟨.hbm, 234, rfl⟩
abbrev main_c_32 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_cst_33 : Ref sig .tc := ⟨.hbm, 245, rfl⟩
abbrev main_v195 : Ref sig .tc := ⟨.hbm, 246, rfl⟩
abbrev main_cst_34 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_cst_35 : Ref sig .tc := ⟨.hbm, 254, rfl⟩
abbrev main_v202 : Ref sig .tc := ⟨.hbm, 255, rfl⟩
abbrev main_cst_36 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_cst_37 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_cst_38 : Ref sig .tc := ⟨.hbm, 287, rfl⟩
abbrev main_v232 : Ref sig .tc := ⟨.hbm, 288, rfl⟩
abbrev main_c_39 : Ref sig .tc := ⟨.hbm, 289, rfl⟩
abbrev main_v233 : Ref sig .tc := ⟨.hbm, 290, rfl⟩
abbrev main_v234 : Ref sig .tc := ⟨.hbm, 291, rfl⟩
abbrev main_c_40 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_c_41 : Ref sig .tc := ⟨.hbm, 298, rfl⟩
abbrev main_v240 : Ref sig .tc := ⟨.hbm, 299, rfl⟩
abbrev main_v241 : Ref sig .tc := ⟨.hbm, 300, rfl⟩
abbrev main_c_42 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_cst_43 : Ref sig .tc := ⟨.hbm, 311, rfl⟩
abbrev main_v251 : Ref sig .tc := ⟨.hbm, 312, rfl⟩
abbrev main_cst_44 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_cst_45 : Ref sig .tc := ⟨.hbm, 320, rfl⟩
abbrev main_v258 : Ref sig .tc := ⟨.hbm, 321, rfl⟩
abbrev main_cst_46 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_cst_47 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_cst_48 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_cst_49 : Ref sig .tc := ⟨.hbm, 345, rfl⟩
abbrev main_v279 : Ref sig .tc := ⟨.hbm, 346, rfl⟩
abbrev main_cst_50 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_cst_51 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  slices_S5x512_S1x512_0_0 : S5x512.Slices ![0, 0] S1x512
  shapeCasts_S1x512_S512 : S1x512.ShapeCasts S512
  bcast_S_S50000x128 : S_.BroadcastsInDim S50000x128 (![] : Fin 0 → Fin S50000x128.rank)
  bcast_S_S150000 : S_.BroadcastsInDim S150000 (![] : Fin 0 → Fin S150000.rank)
  bcast_S150000_S150000x1_0 : S150000.BroadcastsInDim S150000x1 (![0] : Fin 1 → Fin S150000x1.rank)
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x512_S512x512_0_0 : ∀ a, (![0, 0] : Fin 2 → Nat) a + S512x512.size a ≤ S512x512.size a
  h_S512x512 : 0 < S512x512.numel
  inb_S2000x512_S2000x512_0_0 : ∀ a, (![0, 0] : Fin 2 → Nat) a + S2000x512.size a ≤ S2000x512.size a
  h_S2000x512 : 0 < S2000x512.numel
  reducesTo_S50000x512_S512_d0 : S50000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  slices_S5x512_S1x512_1_0 : S5x512.Slices ![1, 0] S1x512
  bcast_S_S50000x512 : S_.BroadcastsInDim S50000x512 (![] : Fin 0 → Fin S50000x512.rank)
  shapeCasts_S2000x512_S2000x512 : S2000x512.ShapeCasts S2000x512
  shapeCasts_S512x512_S512x512 : S512x512.ShapeCasts S512x512
  slices_S4x512x512_S1x512x512_1_0_0 : S4x512x512.Slices ![1, 0, 0] S1x512x512
  slices_S4x512_S1x512_1_0 : S4x512.Slices ![1, 0] S1x512
  slices_S5x512_S1x512_2_0 : S5x512.Slices ![2, 0] S1x512
  slices_S4x512x512_S1x512x512_2_0_0 : S4x512x512.Slices ![2, 0, 0] S1x512x512
  slices_S4x512_S1x512_2_0 : S4x512.Slices ![2, 0] S1x512
  slices_S5x512_S1x512_3_0 : S5x512.Slices ![3, 0] S1x512
  slices_S4x512x512_S1x512x512_3_0_0 : S4x512x512.Slices ![3, 0, 0] S1x512x512
  slices_S4x512_S1x512_3_0 : S4x512.Slices ![3, 0] S1x512
  slices_S5x512_S1x512_4_0 : S5x512.Slices ![4, 0] S1x512
  bcast_S_S256x512 : S_.BroadcastsInDim S256x512 (![] : Fin 0 → Fin S256x512.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  bcast_S1x512_S256x512_0_1 : S1x512.BroadcastsInDim S256x512 (![0, 1] : Fin 2 → Fin S256x512.rank)
  gather_S50000x128_S150000x1_S150000x128_1_0_n_n_0_1_1128_wf : GatherDims.WF S50000x128 S150000x1 S150000x128 [1] [0] [] [0] [] 1 ![1, 128]
  scatter_S50000x128_S150000x1_S150000x128_1_0_0_1_wf : ScatterDims.WF S50000x128 S150000x1 S150000x128 [1] [0] [0] 1
  dot_S2000x128_S128x512_S2000x512_1_0_0_1_n_n_wf : DotDims.WF S2000x128 S128x512 S2000x512 [1] [0] [0] [1] [] []
  dot_S2000x512_S512x512_S2000x512_1_0_0_1_n_n_wf : DotDims.WF S2000x512 S512x512 S2000x512 [1] [0] [0] [1] [] []
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  scatter_S256x512_S50000x1_S50000x512_1_0_0_1_wf : ScatterDims.WF S256x512 S50000x1 S50000x512 [1] [0] [0] 1
  scatter_S256_S50000x1_S50000_n_0_0_1_wf : ScatterDims.WF S256 S50000x1 S50000 [] [0] [0] 1
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S50000x512.size a
  hwx1_5 : ∀ i : grid1.Coords, EltTy.bits .f32 = 32 ∨ (Rect.block (s := S50000x512) S2000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x512.size a ≤ S50000x512.size a
  hwx2_5 : ∀ i : grid2.Coords, EltTy.bits .f32 = 32 ∨ (Rect.block (s := S50000x512) S2000x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x512.size a ≤ S50000x512.size a
  hwx3_5 : ∀ i : grid3.Coords, EltTy.bits .f32 = 32 ∨ (Rect.block (s := S50000x512) S2000x512.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S50000x512.size a
  hwx4_0 : ∀ i : grid4.Coords, EltTy.bits .f32 = 32 ∨ (Rect.block (s := S50000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S512x512.size a
  hwx4_3 : ∀ i : grid4.Coords, EltTy.bits .f32 = 32 ∨ (Rect.block (s := S512x512) S512x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x512.size a ≤ S50000x512.size a
  hwx4_5 : ∀ i : grid4.Coords, EltTy.bits .f32 = 32 ∨ (Rect.block (s := S50000x512) S2000x512.size (cc4_transform_5 i) (hinb4_5 i)).WholeWords (EltTy.packing .f32)

variable [Facts₀]

def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def scatter_S256x512_S50000x1_S50000x512_1_0_0_1 : ScatterDims S256x512 S50000x1 S50000x512 where
  updateWindowDims := [1]
  insertedWindowDims := [0]
  scatterDimsToOperandDims := [0]
  indexVectorDim := 1
  wf := scatter_S256x512_S50000x1_S50000x512_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v79) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v80) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v81) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v82) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v135) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v109) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v136) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v113) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v137) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v138) S2000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v191) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v165) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v192) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v169) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v193) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v194) S2000x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v247) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v221) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v248) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v225) S512x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v249) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v250) S2000x512.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x150000 : Shape := ⟨2, ![2, 150000]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S4x512x512 : Shape := ⟨3, ![4, 512, 512]⟩
abbrev S4x512 : Shape := ⟨2, ![4, 512]⟩
abbrev S5x512 : Shape := ⟨2, ![5, 512]⟩
abbrev S1x150000 : Shape := ⟨2, ![1, 150000]⟩
abbrev S150000 : Shape := ⟨1, ![150000]⟩
abbrev S1x512 : Shape := ⟨2, ![1, 512]⟩
abbrev S_ : Shape := ⟨0, ![]⟩
abbrev S150000x1 : Shape := ⟨2, ![150000, 1]⟩
abbrev S150000x128 : Shape := ⟨2, ![150000, 128]⟩
abbrev S50000x512 : Shape := ⟨2, ![50000, 512]⟩
abbrev S1x512x512 : Shape := ⟨3, ![1, 512, 512]⟩
abbrev S150000x512 : Shape := ⟨2, ![150000, 512]⟩
abbrev S256x512 : Shape := ⟨2, ![256, 512]⟩
abbrev S50000x1 : Shape := ⟨2, ![50000, 1]⟩
abbrev S256 : Shape := ⟨1, ![256]⟩
abbrev S256x1 : Shape := ⟨2, ![256, 1]⟩

abbrev nBuf : Space → Nat
  | .hbm => 417
  | .vmem => 0
  | .smem => 0
  | _ => 0

abbrev hbmTy0_0 (i : Nat) : BufTy := match i % 128 with
  | 0 => ⟨S50000x128, .f32⟩
  | 1 => ⟨S2x150000, .i32⟩
  | 2 => ⟨S50000, .i32⟩
  | 3 => ⟨S128x512, .f32⟩
  | 4 => ⟨S512, .f32⟩
  | 5 => ⟨S512x512, .f32⟩
  | 6 => ⟨S512, .f32⟩
  | 7 => ⟨S4x512x512, .f32⟩
  | 8 => ⟨S4x512, .f32⟩
  | 9 => ⟨S4x512x512, .f32⟩
  | 10 => ⟨S4x512, .f32⟩
  | 11 => ⟨S5x512, .f32⟩
  | 12 => ⟨S5x512, .f32⟩
  | 13 => ⟨S512x512, .f32⟩
  | 14 => ⟨S512, .f32⟩
  | 15 => ⟨S1x150000, .i32⟩
  | 16 => ⟨S150000, .i32⟩
  | 17 => ⟨S1x150000, .i32⟩
  | 18 => ⟨S150000, .i32⟩
  | 19 => ⟨S1x512, .f32⟩
  | 20 => ⟨S512, .f32⟩
  | 21 => ⟨S1x512, .f32⟩
  | 22 => ⟨S512, .f32⟩
  | 23 => ⟨S_, .f32⟩
  | 24 => ⟨S50000x128, .f32⟩
  | 25 => ⟨S_, .i32⟩
  | 26 => ⟨S150000, .i32⟩
  | 27 => ⟨S150000, .i1⟩
  | 28 => ⟨S_, .i32⟩
  | 29 => ⟨S150000, .i32⟩
  | 30 => ⟨S150000, .i32⟩
  | 31 => ⟨S150000, .i32⟩
  | 32 => ⟨S150000x1, .i32⟩
  | 33 => ⟨S150000x128, .f32⟩
  | 34 => ⟨S_, .i32⟩
  | 35 => ⟨S150000, .i32⟩
  | 36 => ⟨S150000, .i1⟩
  | 37 => ⟨S_, .i32⟩
  | 38 => ⟨S150000, .i32⟩
  | 39 => ⟨S150000, .i32⟩
  | 40 => ⟨S150000, .i32⟩
  | 41 => ⟨S150000x1, .i32⟩
  | 42 => ⟨S50000x128, .f32⟩
  | 43 => ⟨S50000x128, .f32⟩
  | 44 => ⟨S50000x512, .f32⟩
  | 45 => ⟨S1x512, .f32⟩
  | 46 => ⟨S50000x512, .f32⟩
  | 47 => ⟨S50000x512, .f32⟩
  | 48 => ⟨S_, .f32⟩
  | 49 => ⟨S50000x512, .f32⟩
  | 50 => ⟨S50000x512, .f32⟩
  | 51 => ⟨S50000x512, .f32⟩
  | 52 => ⟨S1x512, .f32⟩
  | 53 => ⟨S50000x512, .f32⟩
  | 54 => ⟨S50000x512, .f32⟩
  | 55 => ⟨S_, .f32⟩
  | 56 => ⟨S50000x512, .f32⟩
  | 57 => ⟨S50000x512, .f32⟩
  | 58 => ⟨S_, .f32⟩
  | 59 => ⟨S512, .f32⟩
  | 60 => ⟨S_, .f32⟩
  | 61 => ⟨S512, .f32⟩
  | 62 => ⟨S512, .f32⟩
  | 63 => ⟨S1x512, .f32⟩
  | 64 => ⟨S50000x512, .f32⟩
  | 65 => ⟨S50000x512, .f32⟩
  | 66 => ⟨S50000x512, .f32⟩
  | 67 => ⟨S_, .f32⟩
  | 68 => ⟨S512, .f32⟩
  | 69 => ⟨S_, .f32⟩
  | 70 => ⟨S512, .f32⟩
  | 71 => ⟨S512, .f32⟩
  | 72 => ⟨S1x512, .f32⟩
  | 73 => ⟨S50000x512, .f32⟩
  | 74 => ⟨S50000x512, .f32⟩
  | 75 => ⟨S1x512, .f32⟩
  | 76 => ⟨S50000x512, .f32⟩
  | 77 => ⟨S50000x512, .f32⟩
  | 78 => ⟨S_, .f32⟩
  | 79 => ⟨S512, .f32⟩
  | 80 => ⟨S512, .f32⟩
  | 81 => ⟨S512, .f32⟩
  | 82 => ⟨S1x512, .f32⟩
  | 83 => ⟨S50000x512, .f32⟩
  | 84 => ⟨S50000x512, .f32⟩
  | 85 => ⟨S1x512, .f32⟩
  | 86 => ⟨S50000x512, .f32⟩
  | 87 => ⟨S50000x512, .f32⟩
  | 88 => ⟨S1x512x512, .f32⟩
  | 89 => ⟨S512x512, .f32⟩
  | 90 => ⟨S1x512, .f32⟩
  | 91 => ⟨S512, .f32⟩
  | 92 => ⟨S1x512x512, .f32⟩
  | 93 => ⟨S512x512, .f32⟩
  | 94 => ⟨S1x512, .f32⟩
  | 95 => ⟨S512, .f32⟩
  | 96 => ⟨S1x512, .f32⟩
  | 97 => ⟨S512, .f32⟩
  | 98 => ⟨S1x512, .f32⟩
  | 99 => ⟨S512, .f32⟩
  | 100 => ⟨S_, .f32⟩
  | 101 => ⟨S50000x512, .f32⟩
  | 102 => ⟨S_, .i32⟩
  | 103 => ⟨S150000, .i32⟩
  | 104 => ⟨S150000, .i1⟩
  | 105 => ⟨S_, .i32⟩
  | 106 => ⟨S150000, .i32⟩
  | 107 => ⟨S150000, .i32⟩
  | 108 => ⟨S150000, .i32⟩
  | 109 => ⟨S150000x1, .i32⟩
  | 110 => ⟨S150000x512, .f32⟩
  | 111 => ⟨S_, .i32⟩
  | 112 => ⟨S150000, .i32⟩
  | 113 => ⟨S150000, .i1⟩
  | 114 => ⟨S_, .i32⟩
  | 115 => ⟨S150000, .i32⟩
  | 116 => ⟨S150000, .i32⟩
  | 117 => ⟨S150000, .i32⟩
  | 118 => ⟨S150000x1, .i32⟩
  | 119 => ⟨S50000x512, .f32⟩
  | 120 => ⟨S50000x512, .f32⟩
  | 121 => ⟨S50000x512, .f32⟩
  | 122 => ⟨S1x512, .f32⟩
  | 123 => ⟨S50000x512, .f32⟩
  | 124 => ⟨S50000x512, .f32⟩
  | 125 => ⟨S_, .f32⟩
  | 126 => ⟨S50000x512, .f32⟩
  | 127 => ⟨S50000x512, .f32⟩
  | _ => ⟨S50000x128, .f32⟩

abbrev hbmTy0_1 (i : Nat) : BufTy := match i % 128 with
  | 0 => ⟨S50000x512, .f32⟩
  | 1 => ⟨S1x512, .f32⟩
  | 2 => ⟨S50000x512, .f32⟩
  | 3 => ⟨S50000x512, .f32⟩
  | 4 => ⟨S_, .f32⟩
  | 5 => ⟨S50000x512, .f32⟩
  | 6 => ⟨S50000x512, .f32⟩
  | 7 => ⟨S_, .f32⟩
  | 8 => ⟨S512, .f32⟩
  | 9 => ⟨S_, .f32⟩
  | 10 => ⟨S512, .f32⟩
  | 11 => ⟨S512, .f32⟩
  | 12 => ⟨S1x512, .f32⟩
  | 13 => ⟨S50000x512, .f32⟩
  | 14 => ⟨S50000x512, .f32⟩
  | 15 => ⟨S50000x512, .f32⟩
  | 16 => ⟨S_, .f32⟩
  | 17 => ⟨S512, .f32⟩
  | 18 => ⟨S_, .f32⟩
  | 19 => ⟨S512, .f32⟩
  | 20 => ⟨S512, .f32⟩
  | 21 => ⟨S1x512, .f32⟩
  | 22 => ⟨S50000x512, .f32⟩
  | 23 => ⟨S50000x512, .f32⟩
  | 24 => ⟨S1x512, .f32⟩
  | 25 => ⟨S50000x512, .f32⟩
  | 26 => ⟨S50000x512, .f32⟩
  | 27 => ⟨S_, .f32⟩
  | 28 => ⟨S512, .f32⟩
  | 29 => ⟨S512, .f32⟩
  | 30 => ⟨S512, .f32⟩
  | 31 => ⟨S1x512, .f32⟩
  | 32 => ⟨S50000x512, .f32⟩
  | 33 => ⟨S50000x512, .f32⟩
  | 34 => ⟨S1x512, .f32⟩
  | 35 => ⟨S50000x512, .f32⟩
  | 36 => ⟨S50000x512, .f32⟩
  | 37 => ⟨S1x512x512, .f32⟩
  | 38 => ⟨S512x512, .f32⟩
  | 39 => ⟨S1x512, .f32⟩
  | 40 => ⟨S512, .f32⟩
  | 41 => ⟨S1x512x512, .f32⟩
  | 42 => ⟨S512x512, .f32⟩
  | 43 => ⟨S1x512, .f32⟩
  | 44 => ⟨S512, .f32⟩
  | 45 => ⟨S1x512, .f32⟩
  | 46 => ⟨S512, .f32⟩
  | 47 => ⟨S1x512, .f32⟩
  | 48 => ⟨S512, .f32⟩
  | 49 => ⟨S_, .f32⟩
  | 50 => ⟨S50000x512, .f32⟩
  | 51 => ⟨S_, .i32⟩
  | 52 => ⟨S150000, .i32⟩
  | 53 => ⟨S150000, .i1⟩
  | 54 => ⟨S_, .i32⟩
  | 55 => ⟨S150000, .i32⟩
  | 56 => ⟨S150000, .i32⟩
  | 57 => ⟨S150000, .i32⟩
  | 58 => ⟨S150000x1, .i32⟩
  | 59 => ⟨S150000x512, .f32⟩
  | 60 => ⟨S_, .i32⟩
  | 61 => ⟨S150000, .i32⟩
  | 62 => ⟨S150000, .i1⟩
  | 63 => ⟨S_, .i32⟩
  | 64 => ⟨S150000, .i32⟩
  | 65 => ⟨S150000, .i32⟩
  | 66 => ⟨S150000, .i32⟩
  | 67 => ⟨S150000x1, .i32⟩
  | 68 => ⟨S50000x512, .f32⟩
  | 69 => ⟨S50000x512, .f32⟩
  | 70 => ⟨S50000x512, .f32⟩
  | 71 => ⟨S1x512, .f32⟩
  | 72 => ⟨S50000x512, .f32⟩
  | 73 => ⟨S50000x512, .f32⟩
  | 74 => ⟨S_, .f32⟩
  | 75 => ⟨S50000x512, .f32⟩
  | 76 => ⟨S50000x512, .f32⟩
  | 77 => ⟨S50000x512, .f32⟩
  | 78 => ⟨S1x512, .f32⟩
  | 79 => ⟨S50000x512, .f32⟩
  | 80 => ⟨S50000x512, .f32⟩
  | 81 => ⟨S_, .f32⟩
  | 82 => ⟨S50000x512, .f32⟩
  | 83 => ⟨S50000x512, .f32⟩
  | 84 => ⟨S_, .f32⟩
  | 85 => ⟨S512, .f32⟩
  | 86 => ⟨S_, .f32⟩
  | 87 => ⟨S512, .f32⟩
  | 88 => ⟨S512, .f32⟩
  | 89 => ⟨S1x512, .f32⟩
  | 90 => ⟨S50000x512, .f32⟩
  | 91 => ⟨S50000x512, .f32⟩
  | 92 => ⟨S50000x512, .f32⟩
  | 93 => ⟨S_, .f32⟩
  | 94 => ⟨S512, .f32⟩
  | 95 => ⟨S_, .f32⟩
  | 96 => ⟨S512, .f32⟩
  | 97 => ⟨S512, .f32⟩
  | 98 => ⟨S1x512, .f32⟩
  | 99 => ⟨S50000x512, .f32⟩
  | 100 => ⟨S50000x512, .f32⟩
  | 101 => ⟨S1x512, .f32⟩
  | 102 => ⟨S50000x512, .f32⟩
  | 103 => ⟨S50000x512, .f32⟩
  | 104 => ⟨S_, .f32⟩
  | 105 => ⟨S512, .f32⟩
  | 106 => ⟨S512, .f32⟩
  | 107 => ⟨S512, .f32⟩
  | 108 => ⟨S1x512, .f32⟩
  | 109 => ⟨S50000x512, .f32⟩
  | 110 => ⟨S50000x512, .f32⟩
  | 111 => ⟨S1x512, .f32⟩
  | 112 => ⟨S50000x512, .f32⟩
  | 113 => ⟨S50000x512, .f32⟩
  | 114 => ⟨S1x512x512, .f32⟩
  | 115 => ⟨S512x512, .f32⟩
  | 116 => ⟨S1x512, .f32⟩
  | 117 => ⟨S512, .f32⟩
  | 118 => ⟨S1x512x512, .f32⟩
  | 119 => ⟨S512x512, .f32⟩
  | 120 => ⟨S1x512, .f32⟩
  | 121 => ⟨S512, .f32⟩
  | 122 => ⟨S1x512, .f32⟩
  | 123 => ⟨S512, .f32⟩
  | 124 => ⟨S1x512, .f32⟩
  | 125 => ⟨S512, .f32⟩
  | 126 => ⟨S_, .f32⟩
  | 127 => ⟨S50000x512, .f32⟩
  | _ => ⟨S50000x128, .f32⟩

abbrev hbmTy0_2 (i : Nat) : BufTy := match i % 128 with
  | 0 => ⟨S_, .i32⟩
  | 1 => ⟨S150000, .i32⟩
  | 2 => ⟨S150000, .i1⟩
  | 3 => ⟨S_, .i32⟩
  | 4 => ⟨S150000, .i32⟩
  | 5 => ⟨S150000, .i32⟩
  | 6 => ⟨S150000, .i32⟩
  | 7 => ⟨S150000x1, .i32⟩
  | 8 => ⟨S150000x512, .f32⟩
  | 9 => ⟨S_, .i32⟩
  | 10 => ⟨S150000, .i32⟩
  | 11 => ⟨S150000, .i1⟩
  | 12 => ⟨S_, .i32⟩
  | 13 => ⟨S150000, .i32⟩
  | 14 => ⟨S150000, .i32⟩
  | 15 => ⟨S150000, .i32⟩
  | 16 => ⟨S150000x1, .i32⟩
  | 17 => ⟨S50000x512, .f32⟩
  | 18 => ⟨S50000x512, .f32⟩
  | 19 => ⟨S50000x512, .f32⟩
  | 20 => ⟨S1x512, .f32⟩
  | 21 => ⟨S50000x512, .f32⟩
  | 22 => ⟨S50000x512, .f32⟩
  | 23 => ⟨S_, .f32⟩
  | 24 => ⟨S50000x512, .f32⟩
  | 25 => ⟨S50000x512, .f32⟩
  | 26 => ⟨S50000x512, .f32⟩
  | 27 => ⟨S1x512, .f32⟩
  | 28 => ⟨S50000x512, .f32⟩
  | 29 => ⟨S50000x512, .f32⟩
  | 30 => ⟨S_, .f32⟩
  | 31 => ⟨S50000x512, .f32⟩
  | 32 => ⟨S50000x512, .f32⟩
  | 33 => ⟨S_, .f32⟩
  | 34 => ⟨S512, .f32⟩
  | 35 => ⟨S_, .f32⟩
  | 36 => ⟨S512, .f32⟩
  | 37 => ⟨S512, .f32⟩
  | 38 => ⟨S1x512, .f32⟩
  | 39 => ⟨S50000x512, .f32⟩
  | 40 => ⟨S50000x512, .f32⟩
  | 41 => ⟨S50000x512, .f32⟩
  | 42 => ⟨S_, .f32⟩
  | 43 => ⟨S512, .f32⟩
  | 44 => ⟨S_, .f32⟩
  | 45 => ⟨S512, .f32⟩
  | 46 => ⟨S512, .f32⟩
  | 47 => ⟨S1x512, .f32⟩
  | 48 => ⟨S50000x512, .f32⟩
  | 49 => ⟨S50000x512, .f32⟩
  | 50 => ⟨S1x512, .f32⟩
  | 51 => ⟨S50000x512, .f32⟩
  | 52 => ⟨S50000x512, .f32⟩
  | 53 => ⟨S_, .f32⟩
  | 54 => ⟨S512, .f32⟩
  | 55 => ⟨S512, .f32⟩
  | 56 => ⟨S512, .f32⟩
  | 57 => ⟨S1x512, .f32⟩
  | 58 => ⟨S50000x512, .f32⟩
  | 59 => ⟨S50000x512, .f32⟩
  | 60 => ⟨S1x512, .f32⟩
  | 61 => ⟨S50000x512, .f32⟩
  | 62 => ⟨S50000x512, .f32⟩
  | 63 => ⟨S1x512x512, .f32⟩
  | 64 => ⟨S512x512, .f32⟩
  | 65 => ⟨S1x512, .f32⟩
  | 66 => ⟨S512, .f32⟩
  | 67 => ⟨S1x512x512, .f32⟩
  | 68 => ⟨S512x512, .f32⟩
  | 69 => ⟨S1x512, .f32⟩
  | 70 => ⟨S512, .f32⟩
  | 71 => ⟨S1x512, .f32⟩
  | 72 => ⟨S512, .f32⟩
  | 73 => ⟨S1x512, .f32⟩
  | 74 => ⟨S512, .f32⟩
  | 75 => ⟨S_, .f32⟩
  | 76 => ⟨S50000x512, .f32⟩
  | 77 => ⟨S_, .i32⟩
  | 78 => ⟨S150000, .i32⟩
  | 79 => ⟨S150000, .i1⟩
  | 80 => ⟨S_, .i32⟩
  | 81 => ⟨S150000, .i32⟩
  | 82 => ⟨S150000, .i32⟩
  | 83 => ⟨S150000, .i32⟩
  | 84 => ⟨S150000x1, .i32⟩
  | 85 => ⟨S150000x512, .f32⟩
  | 86 => ⟨S_, .i32⟩
  | 87 => ⟨S150000, .i32⟩
  | 88 => ⟨S150000, .i1⟩
  | 89 => ⟨S_, .i32⟩
  | 90 => ⟨S150000, .i32⟩
  | 91 => ⟨S150000, .i32⟩
  | 92 => ⟨S150000, .i32⟩
  | 93 => ⟨S150000x1, .i32⟩
  | 94 => ⟨S50000x512, .f32⟩
  | 95 => ⟨S50000x512, .f32⟩
  | 96 => ⟨S50000x512, .f32⟩
  | 97 => ⟨S1x512, .f32⟩
  | 98 => ⟨S50000x512, .f32⟩
  | 99 => ⟨S50000x512, .f32⟩
  | 100 => ⟨S_, .f32⟩
  | 101 => ⟨S50000x512, .f32⟩
  | 102 => ⟨S50000x512, .f32⟩
  | 103 => ⟨S50000x512, .f32⟩
  | 104 => ⟨S1x512, .f32⟩
  | 105 => ⟨S50000x512, .f32⟩
  | 106 => ⟨S50000x512, .f32⟩
  | 107 => ⟨S_, .f32⟩
  | 108 => ⟨S50000x512, .f32⟩
  | 109 => ⟨S50000x512, .f32⟩
  | 110 => ⟨S_, .f32⟩
  | 111 => ⟨S512, .f32⟩
  | 112 => ⟨S_, .f32⟩
  | 113 => ⟨S512, .f32⟩
  | 114 => ⟨S512, .f32⟩
  | 115 => ⟨S1x512, .f32⟩
  | 116 => ⟨S50000x512, .f32⟩
  | 117 => ⟨S50000x512, .f32⟩
  | 118 => ⟨S50000x512, .f32⟩
  | 119 => ⟨S_, .f32⟩
  | 120 => ⟨S512, .f32⟩
  | 121 => ⟨S_, .f32⟩
  | 122 => ⟨S512, .f32⟩
  | 123 => ⟨S512, .f32⟩
  | 124 => ⟨S1x512, .f32⟩
  | 125 => ⟨S50000x512, .f32⟩
  | 126 => ⟨S50000x512, .f32⟩
  | 127 => ⟨S1x512, .f32⟩
  | _ => ⟨S50000x128, .f32⟩

abbrev hbmTy0_3 (i : Nat) : BufTy := match i % 128 with
  | 0 => ⟨S50000x512, .f32⟩
  | 1 => ⟨S50000x512, .f32⟩
  | 2 => ⟨S_, .f32⟩
  | 3 => ⟨S512, .f32⟩
  | 4 => ⟨S512, .f32⟩
  | 5 => ⟨S512, .f32⟩
  | 6 => ⟨S1x512, .f32⟩
  | 7 => ⟨S50000x512, .f32⟩
  | 8 => ⟨S50000x512, .f32⟩
  | 9 => ⟨S1x512, .f32⟩
  | 10 => ⟨S50000x512, .f32⟩
  | 11 => ⟨S50000x512, .f32⟩
  | 12 => ⟨S_, .f32⟩
  | 13 => ⟨S256x512, .f32⟩
  | 14 => ⟨S50000x1, .i32⟩
  | 15 => ⟨S256x512, .f32⟩
  | 16 => ⟨S_, .f32⟩
  | 17 => ⟨S50000, .f32⟩
  | 18 => ⟨S_, .f32⟩
  | 19 => ⟨S256, .f32⟩
  | 20 => ⟨S50000x1, .i32⟩
  | 21 => ⟨S256, .f32⟩
  | 22 => ⟨S_, .f32⟩
  | 23 => ⟨S256, .f32⟩
  | 24 => ⟨S256, .f32⟩
  | 25 => ⟨S256x1, .f32⟩
  | 26 => ⟨S256x512, .f32⟩
  | 27 => ⟨S256x512, .f32⟩
  | 28 => ⟨S256x512, .f32⟩
  | 29 => ⟨S1x512, .f32⟩
  | 30 => ⟨S256x512, .f32⟩
  | 31 => ⟨S256x512, .f32⟩
  | 32 => ⟨S256x512, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_10 : Ref sig .tc := ⟨.hbm, 100, rfl⟩
abbrev main_v73 : Ref sig .tc := ⟨.hbm, 101, rfl⟩
abbrev main_c_11 : Ref sig .tc := ⟨.hbm, 102, rfl⟩
abbrev main_v74 : Ref sig .tc := ⟨.hbm, 103, rfl⟩
abbrev main_v75 : Ref sig .tc := ⟨.hbm, 104, rfl⟩
abbrev main_c_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_13 : Ref sig .tc := ⟨.hbm, 111, rfl⟩
abbrev main_v81 : Ref sig .tc := ⟨.hbm, 112, rfl⟩
abbrev main_v82 : Ref sig .tc := ⟨.hbm, 113, rfl⟩
abbrev main_c_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_15 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_16 : Ref sig .tc := ⟨.hbm, 132, rfl⟩
abbrev main_v99 : Ref sig .tc := ⟨.hbm, 133, rfl⟩
abbrev main_v100 : Ref sig .tc := ⟨.hbm, 134, rfl⟩
abbrev main_cst_17 : Ref sig .tc := ⟨.hbm, 135, rfl⟩
abbrev main_v101 : Ref sig .tc := ⟨.hbm, 136, rfl⟩
abbrev main_cst_18 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_19 : Ref sig .tc := ⟨.hbm, 144, rfl⟩
abbrev main_v108 : Ref sig .tc := ⟨.hbm, 145, rfl⟩
abbrev main_cst_20 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_21 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_22 : Ref sig .tc := ⟨.hbm, 177, rfl⟩
abbrev main_v138 : Ref sig .tc := ⟨.hbm, 178, rfl⟩
abbrev main_c_23 : Ref sig .tc := ⟨.hbm, 179, rfl⟩
abbrev main_v139 : Ref sig .tc := ⟨.hbm, 180, rfl⟩
abbrev main_v140 : Ref sig .tc := ⟨.hbm, 181, rfl⟩
abbrev main_c_24 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_c_25 : Ref sig .tc := ⟨.hbm, 188, rfl⟩
abbrev main_v146 : Ref sig .tc := ⟨.hbm, 189, rfl⟩
abbrev main_v147 : Ref sig .tc := ⟨.hbm, 190, rfl⟩
abbrev main_c_26 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_27 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_cst_28 : Ref sig .tc := ⟨.hbm, 209, rfl⟩
abbrev main_v164 : Ref sig .tc := ⟨.hbm, 210, rfl⟩
abbrev main_v165 : Ref sig .tc := ⟨.hbm, 211, rfl⟩
abbrev main_cst_29 : Ref sig .tc := ⟨.hbm, 212, rfl⟩
abbrev main_v166 : Ref sig .tc := ⟨.hbm, 213, rfl⟩
abbrev main_cst_30 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_cst_31 : Ref sig .tc := ⟨.hbm, 221, rfl⟩
abbrev main_v173 : Ref sig .tc := ⟨.hbm, 222, rfl⟩
abbrev main_cst_32 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_33 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_cst_34 : Ref sig .tc := ⟨.hbm, 254, rfl⟩
abbrev main_v203 : Ref sig .tc := ⟨.hbm, 255, rfl⟩
abbrev main_c_35 : Ref sig .tc := ⟨.hbm, 256, rfl⟩
abbrev main_v204 : Ref sig .tc := ⟨.hbm, 257, rfl⟩
abbrev main_v205 : Ref sig .tc := ⟨.hbm, 258, rfl⟩
abbrev main_c_36 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_c_37 : Ref sig .tc := ⟨.hbm, 265, rfl⟩
abbrev main_v211 : Ref sig .tc := ⟨.hbm, 266, rfl⟩
abbrev main_v212 : Ref sig .tc := ⟨.hbm, 267, rfl⟩
abbrev main_c_38 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_cst_39 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_cst_40 : Ref sig .tc := ⟨.hbm, 286, rfl⟩
abbrev main_v229 : Ref sig .tc := ⟨.hbm, 287, rfl⟩
abbrev main_v230 : Ref sig .tc := ⟨.hbm, 288, rfl⟩
abbrev main_cst_41 : Ref sig .tc := ⟨.hbm, 289, rfl⟩
abbrev main_v231 : Ref sig .tc := ⟨.hbm, 290, rfl⟩
abbrev main_cst_42 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_cst_43 : Ref sig .tc := ⟨.hbm, 298, rfl⟩
abbrev main_v238 : Ref sig .tc := ⟨.hbm, 299, rfl⟩
abbrev main_cst_44 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_cst_45 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_cst_46 : Ref sig .tc := ⟨.hbm, 331, rfl⟩
abbrev main_v268 : Ref sig .tc := ⟨.hbm, 332, rfl⟩
abbrev main_c_47 : Ref sig .tc := ⟨.hbm, 333, rfl⟩
abbrev main_v269 : Ref sig .tc := ⟨.hbm, 334, rfl⟩
abbrev main_v270 : Ref sig .tc := ⟨.hbm, 335, rfl⟩
abbrev main_c_48 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_c_49 : Ref sig .tc := ⟨.hbm, 342, rfl⟩
abbrev main_v276 : Ref sig .tc := ⟨.hbm, 343, rfl⟩
abbrev main_v277 : Ref sig .tc := ⟨.hbm, 344, rfl⟩
abbrev main_c_50 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_cst_51 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_cst_52 : Ref sig .tc := ⟨.hbm, 363, rfl⟩
abbrev main_v294 : Ref sig .tc := ⟨.hbm, 364, rfl⟩
abbrev main_v295 : Ref sig .tc := ⟨.hbm, 365, rfl⟩
abbrev main_cst_53 : Ref sig .tc := ⟨.hbm, 366, rfl⟩
abbrev main_v296 : Ref sig .tc := ⟨.hbm, 367, rfl⟩
abbrev main_cst_54 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_cst_55 : Ref sig .tc := ⟨.hbm, 375, rfl⟩
abbrev main_v303 : Ref sig .tc := ⟨.hbm, 376, rfl⟩
abbrev main_cst_56 : Ref sig .tc := ⟨.hbm, 377, rfl⟩
abbrev main_v304 : Ref sig .tc := ⟨.hbm, 378, rfl⟩
abbrev main_v305 : Ref sig .tc := ⟨.hbm, 379, rfl⟩
abbrev main_v306 : Ref sig .tc := ⟨.hbm, 380, rfl⟩
abbrev main_v307 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_cst_57 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_v316 : Ref sig .tc := ⟨.hbm, 391, rfl⟩
abbrev main_v317 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_cst_58 : Ref sig .tc := ⟨.hbm, 396, rfl⟩
abbrev main_v321 : Ref sig .tc := ⟨.hbm, 397, rfl⟩
abbrev main_v322 : Ref sig .tc := ⟨.hbm, 398, rfl⟩
abbrev main_v323 : Ref sig .tc := ⟨.hbm, 399, rfl⟩
abbrev main_cst_59 : Ref sig .tc := ⟨.hbm, 400, rfl⟩
abbrev main_v324 : Ref sig .tc := ⟨.hbm, 401, rfl⟩
abbrev main_cst_60 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_cst_61 : Ref sig .tc := ⟨.hbm, 406, rfl⟩
abbrev main_v328 : Ref sig .tc := ⟨.hbm, 407, rfl⟩
abbrev main_v329 : Ref sig .tc := ⟨.hbm, 408, rfl⟩
abbrev main_v330 : Ref sig .tc := ⟨.hbm, 409, rfl⟩
abbrev main_v331 : Ref sig .tc := ⟨.hbm, 410, rfl⟩
abbrev main_v332 : Ref sig .tc := ⟨.hbm, 411, rfl⟩
abbrev main_v333 : Ref sig .tc := ⟨.hbm, 412, rfl⟩
abbrev main_v334 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  slices_S5x512_S1x512_0_0 : S5x512.Slices ![0, 0] S1x512
  shapeCasts_S1x512_S512 : S1x512.ShapeCasts S512
  bcast_S_S50000x128 : S_.BroadcastsInDim S50000x128 (![] : Fin 0 → Fin S50000x128.rank)
  bcast_S_S150000 : S_.BroadcastsInDim S150000 (![] : Fin 0 → Fin S150000.rank)
  bcast_S150000_S150000x1_0 : S150000.BroadcastsInDim S150000x1 (![0] : Fin 1 → Fin S150000x1.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  reducesTo_S50000x512_S512_d0 : S50000x512.ReducesTo [0] S512
  h_S_ : 0 < S_.numel
  bcast_S_S512 : S_.BroadcastsInDim S512 (![] : Fin 0 → Fin S512.rank)
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  slices_S5x512_S1x512_1_0 : S5x512.Slices ![1, 0] S1x512
  slices_S4x512x512_S1x512x512_1_0_0 : S4x512x512.Slices ![1, 0, 0] S1x512x512
  slices_S4x512_S1x512_1_0 : S4x512.Slices ![1, 0] S1x512
  slices_S5x512_S1x512_2_0 : S5x512.Slices ![2, 0] S1x512
  slices_S4x512x512_S1x512x512_2_0_0 : S4x512x512.Slices ![2, 0, 0] S1x512x512
  slices_S4x512_S1x512_2_0 : S4x512.Slices ![2, 0] S1x512
  slices_S5x512_S1x512_3_0 : S5x512.Slices ![3, 0] S1x512
  slices_S4x512x512_S1x512x512_3_0_0 : S4x512x512.Slices ![3, 0, 0] S1x512x512
  slices_S4x512_S1x512_3_0 : S4x512.Slices ![3, 0] S1x512
  slices_S5x512_S1x512_4_0 : S5x512.Slices ![4, 0] S1x512
  bcast_S_S256x512 : S_.BroadcastsInDim S256x512 (![] : Fin 0 → Fin S256x512.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  bcast_S1x512_S256x512_0_1 : S1x512.BroadcastsInDim S256x512 (![0, 1] : Fin 2 → Fin S256x512.rank)
  gather_S50000x128_S150000x1_S150000x128_1_0_n_n_0_1_1128_wf : GatherDims.WF S50000x128 S150000x1 S150000x128 [1] [0] [] [0] [] 1 ![1, 128]
  scatter_S50000x128_S150000x1_S150000x128_1_0_0_1_wf : ScatterDims.WF S50000x128 S150000x1 S150000x128 [1] [0] [0] 1
  dot_S50000x128_S128x512_S50000x512_1_0_0_1_n_n_wf : DotDims.WF S50000x128 S128x512 S50000x512 [1] [0] [0] [1] [] []
  dot_S50000x512_S512x512_S50000x512_1_0_0_1_n_n_wf : DotDims.WF S50000x512 S512x512 S50000x512 [1] [0] [0] [1] [] []
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  scatter_S256x512_S50000x1_S50000x512_1_0_0_1_wf : ScatterDims.WF S256x512 S50000x1 S50000x512 [1] [0] [0] 1
  scatter_S256_S50000x1_S50000_n_0_0_1_wf : ScatterDims.WF S256 S50000x1 S50000 [] [0] [0] 1
  dot_S256x512_S512x512_S256x512_1_0_0_1_n_n_wf : DotDims.WF S256x512 S512x512 S256x512 [1] [0] [0] [1] [] []

variable [Facts₀]

def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def scatter_S256x512_S50000x1_S50000x512_1_0_0_1 : ScatterDims S256x512 S50000x1 S50000x512 where
  updateWindowDims := [1]
  insertedWindowDims := [0]
  scatterDimsToOperandDims := [0]
  indexVectorDim := 1
  wf := scatter_S256x512_S50000x1_S50000x512_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

class Facts : Prop extends Facts₀ where

variable [Facts]
-- ==== Proof.KernelRun.lean ====
/-
  The idealized kernel's run with its result named.

  The program is five pipelined regions among six stretches of host operations: eleven segments. A core's thread
  state between two segments is "every unscoped buffer at that boundary's contents" beside the generator register
  and an empty debt, and the boundary contents are a fold over the launch memory: a host stretch applies its
  operations, a region replaces its arrays by what its write-backs leave. The launch theorem for a list of segments
  needs the launch state, the chaining of each segment's exit to the next one's entry, and a reading of the last
  thread state against the final memory; it then gives every weakly fair execution terminating with each unscoped
  buffer at the LAST boundary's contents. Read at the result buffer that names the result; read at an argument
  buffer, whose contents no segment changes, it gives the argument back.
-/
import proofs.«145081_j2018634629569_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thread state a core starts from: its unscoped buffers at the launch memory, the generator register, no debt. -/
abbrev T₀ (c : Dev nD) : sProp 𝕄 :=
  iprop(StableHlo.held (c : Thread nD τ) (Pipeline.ucRefs τ sig) (W0 m ρ c) ∗ R c)

/-- What is read off the last thread state: every unscoped buffer of the core holds the last boundary's contents. -/
abbrev AtLast (c : Dev nD) (s : MemSt nD τ sig (Elt F)) : Prop :=
  ∀ b ∈ Pipeline.ucRefs τ sig, s.mem (((c : Thread nD τ)).1, b) = W11 m ρ c b

/-- The launch's ghost state splits into the pipelines' cells and nothing else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iapply (show (BI.emp : sProp 𝕄) ⊢ bigSep Finset.univ (fun _ : Dev nD => (BI.emp : sProp 𝕄)) from by rw [BI.bigSep_emp_const])
    iempintro

/-- Each core's launch holdings give its first thread state. -/
theorem launch_state :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (BI.emp : sProp 𝕄))) ∗ levAts L lv)
      ⊢ |={Set.univ}=> bigSep Finset.univ (T₀ (F := F) m ρ) := by
  refine Pipeline.initEach L lv fun c => ?_
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hbufs, -, Howes, -, Hprng, -⟩, -⟩
  imodintro
  isplitl [Hbufs]; · iexact Hbufs
  isplitl [Hprng]; · iexists _; iexact Hprng
  iexists ∅; iexact Howes

/-- Each segment is entered from what the one before it left, and the last host stretch leaves the last thread
    state beside an empty debt. -/
theorem chained :
    Pipeline.Seg.Chains (T₀ (F := F) m ρ) (segs m ρ) fun c => iprop(Tₙ m ρ c ∗ ∃ W, owes (c : Thread nD τ) (0 : CellTallies nD τ sig Unit) W) :=
  ⟨fun _ => .rfl, fun _ => .rfl, fun _ => .rfl, fun _ => .rfl, fun _ => .rfl, fun _ => .rfl, fun _ => .rfl, fun _ => .rfl,
   fun _ => .rfl, fun _ => .rfl, fun _ => .rfl, fun c => by
    dsimp only [Pipeline.Seg.post, hseg, Pipeline.HostSeg.ofOps]
    iintro ⟨Hbufs, Hprng, Howes⟩
    isplitl [Hbufs Hprng]
    · isplitl [Hbufs]; · iexact Hbufs
      iexact Hprng
    iexact Howes⟩

/-- The last thread state against a final physical state: the buffers it holds are in the memory. -/
theorem read_last (c : Dev nD) (s' : Phys nD τ sig (Elt F)) :
    iprop(Tₙ m ρ c ∗ SI s') ⊢ |={Set.univ}=> iprop(⌜AtLast m ρ c s'.mem⌝ ∗ SI s') := by
  iintro ⟨⟨Hbufs, -⟩, HSI⟩
  unfold StableHlo.held
  imodintro
  iapply (pointsTo_read_all (Pipeline.ucRefs τ sig) (fun b => (((c : Thread nD τ)).1, b)) (W11 m ρ c) s')
  isplitl [Hbufs] <;> iassumption

set_option backward.isDefEq.respectTransparency.types false in
/-- From any memory with zero counters every weakly fair execution terminates without a fault, and whatever holds of
    a memory with every core's unscoped buffers at the last boundary's contents holds of the final one. -/
theorem run_boundary {Q : PUnit × MemSt nD τ sig (Elt F) → Prop}
    (hQ : ∀ s : MemSt nD τ sig (Elt F), (∀ c : Dev nD, AtLast m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := T₀ m ρ) (Tₙ := Tₙ m ρ)
    (hch := chained m ρ)
    (hinit := launch_state m ρ)
    (QY := AtLast m ρ)
    (hfin := read_last m ρ)
    (hQ := hQ)

/-- The run with the result named: the result buffer ends at the last boundary's contents there, and every argument
    array ends as launched. -/
theorem run_result : θ_run defs (onTc (τ := τ) (main (F := F))) ⟨m, fun _ => 0, ρ⟩ (fun r => ∀ c : Dev nD,
      r.2.mem ((c.tc : Thread nD τ).loc main_v292) = W11 m ρ c (Proc.devRef .tc main_v292)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_boundary m ρ fun s h c =>
    ⟨h c _ (mem_uc main_v292 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c),
      (h c _ (mem_uc main_arg8 (by decide))).trans (W11_main_arg8 m ρ c),
      (h c _ (mem_uc main_arg9 (by decide))).trans (W11_main_arg9 m ρ c),
      (h c _ (mem_uc main_arg10 (by decide))).trans (W11_main_arg10 m ρ c),
      (h c _ (mem_uc main_arg11 (by decide))).trans (W11_main_arg11 m ρ c),
      (h c _ (mem_uc main_arg12 (by decide))).trans (W11_main_arg12 m ρ c),
      (h c _ (mem_uc main_arg13 (by decide))).trans (W11_main_arg13 m ρ c),
      (h c _ (mem_uc main_arg14 (by decide))).trans (W11_main_arg14 m ρ c)⟩

end Cert.KernelIdeal.Result

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.Region0.lean ====
/-
  Region 0: the perceptron of a 2000-row block is the block of the perceptron.

  The region's grid has 25 points. At point t the first window stages rows 2000·t … 2000·t + 1999 of the input array,
  the four parameter windows stage their whole arrays at every point, and the output window writes back rows
  2000·t … 2000·t + 1999 of the result. The body computes, for its block x, the rectified two-layer map of x: an entry
  (p, q) of it depends on row p of x only, and row p of the block is row 2000·t + p of the input. So what point t writes
  back is block t of the whole-array perceptron of the region's input arrays; the 25 blocks tile the 50000 rows, hence
  the result array ends as that function, entry by entry.
-/
import proofs.«145081_j2018634629569_1_alg».proof.Proof.Gen.KernelIdeal.Frame
import proofs.«145081_j2018634629569_1_alg».proof.Proof.LibMlpAt

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))
variable (wA : DotDims.WF S50000x128 S128x512 S50000x512 [1] [0] [0] [1] [] [])
  (wB : DotDims.WF S50000x512 S512x512 S50000x512 [1] [0] [0] [1] [] [])

/-- The whole-array perceptron of the arrays the region is entered with. -/
abbrev whole (c : Dev nD) : S50000x512.Idx → Elt Ideal .f32 :=
  Cert.Mlp.mlpHost wA wB bcast_S1x512_S50000x512_0_1 bcast_S_S50000x512
    (V c main_v23) (V c main_arg3) (V c main_v24) (V c main_arg5) (V c main_v25)

theorem zero2 : (![0, 0] : Fin 2 → Nat) = fun _ => 0 := funext fun a => by fin_cases a <;> rfl

/-- The body's stored value is the tile spelling of the perceptron of its loaded blocks. -/
theorem pay_tile (x0 : FVec Ideal S2000x128 .f32) (x1 : FVec Ideal S128x512 .f32) (x2 : FVec Ideal S1x512 .f32)
    (x3 : FVec Ideal S512x512 .f32) (x4 : FVec Ideal S1x512 .f32) :
    k0_pay1 x0 x1 x2 x3 x4 = Cert.Mlp.mlpTile dot_S2000x128_S128x512_S2000x512_1_0_0_1_n_n_wf dot_S2000x512_S512x512_S2000x512_1_0_0_1_n_n_wf
      broadcasts_S1x512_S2000x512 bitsLt_bf16_f32 x0 x1 x2 x3 x4 := by
  unfold k0_pay1
  simp only [shapeCast_self]
  rfl

/-- A tile against the whole array: if row p of the tile's input is row r of the array's, entry (p, q) of the tile's
    perceptron is entry (r, q) of the array's. -/
theorem tile_row (X0 : FVec Ideal S50000x128 .f32) (x0 : FVec Ideal S2000x128 .f32) (x1 : FVec Ideal S128x512 .f32) (x2 : FVec Ideal S1x512 .f32)
    (x3 : FVec Ideal S512x512 .f32) (x4 : FVec Ideal S1x512 .f32) (p : Fin 2000) (q : Fin 512) (r : Fin 50000)
    (hrow : ∀ a : Fin 128, x0 (ix2 p a) = X0 (ix2 r a)) :
    k0_pay1 x0 x1 x2 x3 x4 (ix2 p q)
      = Cert.Mlp.mlpHost wA wB bcast_S1x512_S50000x512_0_1 bcast_S_S50000x512 X0 x1 x2 x3 x4 (ix2 r q) := by
  rw [pay_tile, Cert.Mlp.mlpTile_at, Cert.Mlp.mlpHost_at]
  exact Cert.Mlp.mlpVal_congr_row _ _ _ _ _ _ _ _ hrow _

/-- The index maps over the grid: the first window and the output window move together along the rows, every other
    block index is zero, and the row-block index stays below 25. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) < 25 :=
  (by decide +kernel : ∀ t : Fin grid0.N, _)

/-- Every row block is some point's. -/
theorem idx_onto : ∀ b : Fin 25, ∃ t : Fin cfg0.N, win0_5.index t = ![b.val, 0] :=
  (by decide +kernel : ∀ b : Fin 25, ∃ t : Fin grid0.N, win0_5.index t = ![b.val, 0])

/-- What point t writes back is block t of the whole-array perceptron. -/
theorem flushed_eq (c : Dev nD) (t : Fin cfg0.N) :
    (dat0 V c).flushed 5 t = ((cfg0.win 5).blk t).view.read (Elt Ideal) (whole V wA wB c) := by
  show (cfg0.win 5).cut (grid0.coords t) ((dat0 V c).after 5 t) = _
  rw [after0_5]
  unfold out0_5
  rw [View.canon_unit_zero zero2]
  simp only [View.ld_unit_zero (S := S2000x128) zero2, View.ld_unit_zero (S := S128x512) zero2, View.ld_unit_zero (S := S1x512) zero2,
    View.ld_unit_zero (S := S512x512) zero2]
  obtain ⟨e00, e01, e10, e11, e20, e21, e30, e31, e40, e41, e51, e5lt⟩ := idx_facts t
  funext j
  obtain ⟨p, q, rfl⟩ : ∃ (p : Fin 2000) (q : Fin 512), j = ix2 p q := ⟨j 0, j 1, eq_ix2 j⟩
  show k0_pay1 (iblk0 V c 0 t) (iblk0 V c 1 t) (iblk0 V c 2 t) (iblk0 V c 3 t) (iblk0 V c 4 t) (ix2 p q)
    = whole V wA wB c (((cfg0.win 5).blk t).view.emb (ix2 p q))
  have h1 : iblk0 V c 1 t = V c main_arg3 := by
    funext y
    show V c main_arg3 (((cfg0.win 1).blk t).view.emb y) = V c main_arg3 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 512 + 1 * (y 1).val = (y 1).val; omega
  have h2 : iblk0 V c 2 t = V c main_v24 := by
    funext y
    show V c main_v24 (((cfg0.win 2).blk t).view.emb y) = V c main_v24 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 512 + 1 * (y 1).val = (y 1).val; omega
  have h3 : iblk0 V c 3 t = V c main_arg5 := by
    funext y
    show V c main_arg5 (((cfg0.win 3).blk t).view.emb y) = V c main_arg5 y
    refine congrArg _ (funext fun a => Fin.ext ?_)
    match a with
    | ⟨0, _⟩ => show win0_3.index t (0 : Fin 2) * 512 + 1 * (y 0).val = (y 0).val; omega
    | ⟨1, _⟩ => show win0_3.index t (1 : Fin 2) * 512 + 1 * (y 1).val = (y 1).val; omega
  have h4 : iblk0 V c 4 t = V c main_v25 := by
    funext y
    show V c main_v25 (((cfg0.win 4).blk t).view.emb y) = V c main_v25 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 512 + 1 * (y 1).val = (y 1).val; omega
  have hr : win0_5.index t (0 : Fin 2) * 2000 + p.val < 50000 := by have := p.isLt; omega
  have h5 : ((cfg0.win 5).blk t).view.emb (ix2 p q) = ix2 (⟨win0_5.index t (0 : Fin 2) * 2000 + p.val, hr⟩ : Fin 50000) q := by
    funext a; apply Fin.ext
    match a with
    | ⟨0, _⟩ => show win0_5.index t (0 : Fin 2) * 2000 + 1 * p.val = win0_5.index t (0 : Fin 2) * 2000 + p.val; omega
    | ⟨1, _⟩ => show win0_5.index t (1 : Fin 2) * 512 + 1 * q.val = q.val; omega
  rw [h1, h2, h3, h4, h5]
  refine tile_row wA wB (V c main_v23) (iblk0 V c 0 t) (V c main_arg3) (V c main_v24) (V c main_arg5) (V c main_v25) p q _ fun a => ?_
  show V c main_v23 (((cfg0.win 0).blk t).view.emb (ix2 p a)) = V c main_v23 (ix2 _ a)
  refine congrArg _ (funext fun b => Fin.ext ?_)
  match b with
  | ⟨0, _⟩ => show win0_0.index t (0 : Fin 2) * 2000 + 1 * p.val = win0_5.index t (0 : Fin 2) * 2000 + p.val; omega
  | ⟨1, _⟩ => show win0_0.index t (1 : Fin 2) * 128 + 1 * a.val = a.val; omega

/-- An entry of the result array lies in point t's block iff its coordinates lie in the block's ranges. -/
theorem mem_blk (t : Fin cfg0.N) (i : S50000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_v26).slice (win0_5.rect t)).set ↔ _
  rw [View.set_slice_whole, Rect.mem_set_unit]
  exact Iff.rfl

/-- The result array after the region: the whole-array perceptron of the arrays it was entered with. -/
theorem final (c : Dev nD) : (dat0 V c).arrAt 5 cfg0.N = whole V wA wB c :=
  (dat0 V c).arrAt_eq_of_cover 5 (whole V wA wB c) (fun t _ => flushed_eq V wA wB c t) fun i => by
    have hi0 : (i 0).val < 50000 := (i 0).isLt
    have hi1 : (i 1).val < 512 := (i 1).isLt
    obtain ⟨t, ht⟩ := idx_onto ⟨(i 0).val / 2000, by omega⟩
    have q0 : win0_5.index t (0 : Fin 2) = (i 0).val / 2000 := congrFun ht 0
    have q1 : win0_5.index t (1 : Fin 2) = 0 := congrFun ht 1
    refine ⟨t, flush0_5 t, ?_⟩
    rw [mem_blk]
    intro a
    match a with
    | ⟨0, _⟩ => show win0_5.index t (0 : Fin 2) * 2000 ≤ (i 0).val ∧ (i 0).val < win0_5.index t (0 : Fin 2) * 2000 + 2000; omega
    | ⟨1, _⟩ => show win0_5.index t (1 : Fin 2) * 512 ≤ (i 1).val ∧ (i 1).val < win0_5.index t (1 : Fin 2) * 512 + 512; omega

end Cert.KernelIdeal.Region0

end
-- ==== Proof.BridgeBase.lean ====
/-
  What the two programs share before any perceptron: the arguments, and the edge list's two rows.

  The claim compares the two programs from memories that agree on the fifteen arguments. Both programs first cut the
  edge list [2, 150000] into its row of source indices and its row of target indices, each reshaped to a vector; every
  later block of either program reads those two vectors again.
-/
import proofs.«145081_j2018634629569_1_alg».proof.Proof.Gen.KernelIdeal.Frame
import proofs.«145081_j2018634629569_1_alg».proof.Proof.Gen.ReferenceIdeal.Run
import Idealize.ShloMosaic.PureOps.Ideal

set_option maxRecDepth 16384

noncomputable section

namespace Cert.Bridge

open Cert.KernelIdeal Cert.KernelIdeal.Gen
open Cert.ReferenceIdeal.Value (res_main_v1 res_main_v3)
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
variable (V0' : Valuation Cert.ReferenceIdeal.τ Cert.ReferenceIdeal.sig (Elt Ideal))

/-- The reference's launch contents agree with the kernel's launch memory on the fifteen arguments. -/
structure Agree : Prop where
  a0 : V0' (Proc.devRef .tc Cert.ReferenceIdeal.main_arg0) = m ((c : Thread nD τ).loc main_arg0)
  a1 : V0' (Proc.devRef .tc Cert.ReferenceIdeal.main_arg1) = m ((c : Thread nD τ).loc main_arg1)
  a2 : V0' (Proc.devRef .tc Cert.ReferenceIdeal.main_arg2) = m ((c : Thread nD τ).loc main_arg2)
  a3 : V0' (Proc.devRef .tc Cert.ReferenceIdeal.main_arg3) = m ((c : Thread nD τ).loc main_arg3)
  a4 : V0' (Proc.devRef .tc Cert.ReferenceIdeal.main_arg4) = m ((c : Thread nD τ).loc main_arg4)
  a5 : V0' (Proc.devRef .tc Cert.ReferenceIdeal.main_arg5) = m ((c : Thread nD τ).loc main_arg5)
  a6 : V0' (Proc.devRef .tc Cert.ReferenceIdeal.main_arg6) = m ((c : Thread nD τ).loc main_arg6)
  a7 : V0' (Proc.devRef .tc Cert.ReferenceIdeal.main_arg7) = m ((c : Thread nD τ).loc main_arg7)
  a8 : V0' (Proc.devRef .tc Cert.ReferenceIdeal.main_arg8) = m ((c : Thread nD τ).loc main_arg8)
  a9 : V0' (Proc.devRef .tc Cert.ReferenceIdeal.main_arg9) = m ((c : Thread nD τ).loc main_arg9)
  a10 : V0' (Proc.devRef .tc Cert.ReferenceIdeal.main_arg10) = m ((c : Thread nD τ).loc main_arg10)
  a11 : V0' (Proc.devRef .tc Cert.ReferenceIdeal.main_arg11) = m ((c : Thread nD τ).loc main_arg11)
  a12 : V0' (Proc.devRef .tc Cert.ReferenceIdeal.main_arg12) = m ((c : Thread nD τ).loc main_arg12)
  a13 : V0' (Proc.devRef .tc Cert.ReferenceIdeal.main_arg13) = m ((c : Thread nD τ).loc main_arg13)
  a14 : V0' (Proc.devRef .tc Cert.ReferenceIdeal.main_arg14) = m ((c : Thread nD τ).loc main_arg14)

/-- The source-row indices after the kernel's first stretch are the reference's. -/
theorem v1_eq (hag : Agree m c V0') : W1 m ρ c (Proc.devRef .tc main_v1) = res_main_v1 V0' := by
  unfold res_main_v1
  simp only [W1, hostOps0]
  after_results_simp
  rw [hag.a1]
  rfl

/-- The target-row indices after the kernel's first stretch are the reference's. -/
theorem v3_eq (hag : Agree m c V0') : W1 m ρ c (Proc.devRef .tc main_v3) = res_main_v3 V0' := by
  unfold res_main_v3
  simp only [W1, hostOps0]
  after_results_simp
  rw [hag.a1]
  rfl

end Cert.Bridge

end
-- ==== Proof.Bridge0.lean ====
/-
  The first block: the kernel's first region ends at the reference's first perceptron output.

  Both programs start by splitting the edge list into its source and target rows, wrapping negative indices, gathering
  the source rows of x, summing them into the target rows and adding x: the same operations on the same arguments. The
  reference then applies the two-layer rectified perceptron on the host; the kernel stages the same array and the same
  parameters (the two biases reshaped to one row) through its first region, whose result array is that perceptron of the
  arrays it was entered with. A bias reshaped to one row is the bias broadcast along a new unit axis, which is how the
  reference spells it; everything else is the same term on both sides.
-/
import proofs.«145081_j2018634629569_1_alg».proof.Proof.Gen.KernelIdeal.Frame
import proofs.«145081_j2018634629569_1_alg».proof.Proof.Gen.ReferenceIdeal.Run
import proofs.«145081_j2018634629569_1_alg».proof.Proof.LibMlpAt
import proofs.«145081_j2018634629569_1_alg».proof.Proof.Region0
import proofs.«145081_j2018634629569_1_alg».proof.Proof.BridgeBase

set_option maxRecDepth 16384

noncomputable section

namespace Cert.Bridge

open Cert.KernelIdeal Cert.KernelIdeal.Gen
open Cert.ReferenceIdeal.Value (res_main_v1 res_main_v3 res_main_v35)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)
variable (V0' : Valuation Cert.ReferenceIdeal.τ Cert.ReferenceIdeal.sig (Elt Ideal))

/-- The perceptron of the arrays the first region is entered with is the reference's first perceptron output. -/
theorem stage0 (hag : Agree m c V0') :
    Region0.whole (V1 m ρ) Cert.ReferenceIdeal.Gen.dot_S50000x128_S128x512_S50000x512_1_0_0_1_n_n_wf
      Cert.ReferenceIdeal.Gen.dot_S50000x512_S512x512_S50000x512_1_0_0_1_n_n_wf c = res_main_v35 V0' := by
  unfold res_main_v35 res_main_v1 res_main_v3
  show Cert.Mlp.mlpHost _ _ bcast_S1x512_S50000x512_0_1 bcast_S_S50000x512
      (W1 m ρ c (Proc.devRef .tc main_v23)) (W1 m ρ c (Proc.devRef .tc main_arg3)) (W1 m ρ c (Proc.devRef .tc main_v24))
      (W1 m ρ c (Proc.devRef .tc main_arg5)) (W1 m ρ c (Proc.devRef .tc main_v25)) = _
  simp only [W1, hostOps0]
  after_results_simp
  rw [hag.a0, hag.a1, hag.a3, hag.a4, hag.a5, hag.a6]
  refine (Cert.Mlp.mlpHost_rowCast _ _ _ _ bcast_S512_S1x512_1 shapeCasts_S512_S1x512 _ _ _ _ _).trans ?_
  rfl

/-- So the first region's result array is the reference's first perceptron output. -/
theorem out0 (hag : Agree m c V0') : W2 m ρ c (Proc.devRef .tc main_v26) = res_main_v35 V0' :=
  (W2_arr m ρ c 5).trans ((Region0.final (V1 m ρ) _ _ c).trans (stage0 m ρ c V0' hag))

end Cert.Bridge

end
-- ==== Proof.Leaves.lean ====
/-
  What a buffer holds at a boundary between two segments of the kernel's program.

  The boundary contents are a fold: a host stretch rewrites the buffers its operations write and leaves the others, a
  region replaces its six arrays and leaves the others. So a buffer holds at a boundary what it held at the last segment
  that wrote it. Each stretch's written buffers are listed once; "not written" is then membership in a list, decided
  over the references. The facts below walk the buffers later stretches read back to where they were written: an
  argument array to the launch memory, the two edge-index vectors to the first stretch.
-/
import proofs.«145081_j2018634629569_1_alg».proof.Proof.Gen.KernelIdeal.Frame

set_option maxRecDepth 16384

noncomputable section

namespace Cert.KernelIdeal.Leaves

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## The buffers each host stretch writes -/

abbrev written0 : List (Ref sig .tc) := [main_v0, main_v1, main_v2, main_v3, main_v4, main_v5, main_v6, main_v7, main_cst, main_v8, main_c, main_v9, main_v10, main_c_0, main_v11, main_v12, main_v13, main_v14, main_v15, main_c_1, main_v16, main_v17, main_c_2, main_v18, main_v19, main_v20, main_v21, main_v22, main_v23, main_v24, main_v25]

theorem writes0 : (hostOps0 : List (HloOp τ sig (Elt F))).Forall fun op => op.writes ⊆ (written0.map (Proc.devRef (τ := τ) .tc)).toFinset := by
  simp only [hostOps0, List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, Finset.singleton_subset_iff, List.mem_toFinset]; exact List.mem_map_of_mem (by decide))

/-- A buffer that stretch 0 does not write holds after it what it held before. -/
theorem host0 (b : Ref sig .tc) (h : b ∉ written0) :
    W1 m ρ c (Proc.devRef .tc b) = W0 m ρ c (Proc.devRef .tc b) :=
  StableHlo.after_of_writes_sub hostOps0 _ writes0 h

abbrev written1 : List (Ref sig .tc) := [main_cst_3, main_v27, main_cst_4, main_v28, main_v29, main_v30, main_v31, main_v32, main_v33, main_cst_5, main_v34, main_cst_6, main_v35, main_v36, main_v37, main_v38, main_v39, main_v40, main_v41, main_v42, main_cst_7, main_v43, main_v44, main_v45, main_v46, main_v47, main_v48, main_v49, main_v50, main_v51, main_v52, main_v53, main_v54, main_v55, main_v56, main_v57, main_v58, main_v59, main_v60, main_v61, main_v62, main_v63, main_cst_8, main_v64, main_c_9, main_v65, main_v66, main_c_10, main_v67, main_v68, main_v69, main_v70, main_v71, main_c_11, main_v72, main_v73, main_c_12, main_v74, main_v75, main_v76, main_v77, main_v78, main_v79, main_v80, main_v81]

theorem writes1 : (hostOps1 : List (HloOp τ sig (Elt F))).Forall fun op => op.writes ⊆ (written1.map (Proc.devRef (τ := τ) .tc)).toFinset := by
  simp only [hostOps1, List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, Finset.singleton_subset_iff, List.mem_toFinset]; exact List.mem_map_of_mem (by decide))

/-- A buffer that stretch 1 does not write holds after it what it held before. -/
theorem host1 (b : Ref sig .tc) (h : b ∉ written1) :
    W3 m ρ c (Proc.devRef .tc b) = W2 m ρ c (Proc.devRef .tc b) :=
  StableHlo.after_of_writes_sub hostOps1 _ writes1 h

abbrev written2 : List (Ref sig .tc) := [main_cst_13, main_v83, main_cst_14, main_v84, main_v85, main_v86, main_v87, main_v88, main_v89, main_cst_15, main_v90, main_cst_16, main_v91, main_v92, main_v93, main_v94, main_v95, main_v96, main_v97, main_v98, main_cst_17, main_v99, main_v100, main_v101, main_v102, main_v103, main_v104, main_v105, main_v106, main_v107, main_v108, main_v109, main_v110, main_v111, main_v112, main_v113, main_v114, main_v115, main_v116, main_v117, main_v118, main_v119, main_cst_18, main_v120, main_c_19, main_v121, main_v122, main_c_20, main_v123, main_v124, main_v125, main_v126, main_v127, main_c_21, main_v128, main_v129, main_c_22, main_v130, main_v131, main_v132, main_v133, main_v134, main_v135, main_v136, main_v137]

theorem writes2 : (hostOps2 : List (HloOp τ sig (Elt F))).Forall fun op => op.writes ⊆ (written2.map (Proc.devRef (τ := τ) .tc)).toFinset := by
  simp only [hostOps2, List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, Finset.singleton_subset_iff, List.mem_toFinset]; exact List.mem_map_of_mem (by decide))

/-- A buffer that stretch 2 does not write holds after it what it held before. -/
theorem host2 (b : Ref sig .tc) (h : b ∉ written2) :
    W5 m ρ c (Proc.devRef .tc b) = W4 m ρ c (Proc.devRef .tc b) :=
  StableHlo.after_of_writes_sub hostOps2 _ writes2 h

abbrev written3 : List (Ref sig .tc) := [main_cst_23, main_v139, main_cst_24, main_v140, main_v141, main_v142, main_v143, main_v144, main_v145, main_cst_25, main_v146, main_cst_26, main_v147, main_v148, main_v149, main_v150, main_v151, main_v152, main_v153, main_v154, main_cst_27, main_v155, main_v156, main_v157, main_v158, main_v159, main_v160, main_v161, main_v162, main_v163, main_v164, main_v165, main_v166, main_v167, main_v168, main_v169, main_v170, main_v171, main_v172, main_v173, main_v174, main_v175, main_cst_28, main_v176, main_c_29, main_v177, main_v178, main_c_30, main_v179, main_v180, main_v181, main_v182, main_v183, main_c_31, main_v184, main_v185, main_c_32, main_v186, main_v187, main_v188, main_v189, main_v190, main_v191, main_v192, main_v193]

theorem writes3 : (hostOps3 : List (HloOp τ sig (Elt F))).Forall fun op => op.writes ⊆ (written3.map (Proc.devRef (τ := τ) .tc)).toFinset := by
  simp only [hostOps3, List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, Finset.singleton_subset_iff, List.mem_toFinset]; exact List.mem_map_of_mem (by decide))

/-- A buffer that stretch 3 does not write holds after it what it held before. -/
theorem host3 (b : Ref sig .tc) (h : b ∉ written3) :
    W7 m ρ c (Proc.devRef .tc b) = W6 m ρ c (Proc.devRef .tc b) :=
  StableHlo.after_of_writes_sub hostOps3 _ writes3 h

abbrev written4 : List (Ref sig .tc) := [main_cst_33, main_v195, main_cst_34, main_v196, main_v197, main_v198, main_v199, main_v200, main_v201, main_cst_35, main_v202, main_cst_36, main_v203, main_v204, main_v205, main_v206, main_v207, main_v208, main_v209, main_v210, main_cst_37, main_v211, main_v212, main_v213, main_v214, main_v215, main_v216, main_v217, main_v218, main_v219, main_v220, main_v221, main_v222, main_v223, main_v224, main_v225, main_v226, main_v227, main_v228, main_v229, main_v230, main_v231, main_cst_38, main_v232, main_c_39, main_v233, main_v234, main_c_40, main_v235, main_v236, main_v237, main_v238, main_v239, main_c_41, main_v240, main_v241, main_c_42, main_v242, main_v243, main_v244, main_v245, main_v246, main_v247, main_v248, main_v249]

theorem writes4 : (hostOps4 : List (HloOp τ sig (Elt F))).Forall fun op => op.writes ⊆ (written4.map (Proc.devRef (τ := τ) .tc)).toFinset := by
  simp only [hostOps4, List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, Finset.singleton_subset_iff, List.mem_toFinset]; exact List.mem_map_of_mem (by decide))

/-- A buffer that stretch 4 does not write holds after it what it held before. -/
theorem host4 (b : Ref sig .tc) (h : b ∉ written4) :
    W9 m ρ c (Proc.devRef .tc b) = W8 m ρ c (Proc.devRef .tc b) :=
  StableHlo.after_of_writes_sub hostOps4 _ writes4 h

abbrev written5 : List (Ref sig .tc) := [main_cst_43, main_v251, main_cst_44, main_v252, main_v253, main_v254, main_v255, main_v256, main_v257, main_cst_45, main_v258, main_cst_46, main_v259, main_v260, main_v261, main_v262, main_v263, main_v264, main_v265, main_v266, main_cst_47, main_v267, main_v268, main_v269, main_v270, main_v271, main_v272, main_v273, main_v274, main_v275, main_cst_48, main_v276, main_v277, main_v278, main_cst_49, main_v279, main_cst_50, main_v280, main_v281, main_v282, main_cst_51, main_v283, main_v284, main_v285, main_v286, main_v287, main_v288, main_v289, main_v290, main_v291, main_v292]

theorem writes5 : (hostOps5 : List (HloOp τ sig (Elt F))).Forall fun op => op.writes ⊆ (written5.map (Proc.devRef (τ := τ) .tc)).toFinset := by
  simp only [hostOps5, List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, Finset.singleton_subset_iff, List.mem_toFinset]; exact List.mem_map_of_mem (by decide))

/-- A buffer that stretch 5 does not write holds after it what it held before. -/
theorem host5 (b : Ref sig .tc) (h : b ∉ written5) :
    W11 m ρ c (Proc.devRef .tc b) = W10 m ρ c (Proc.devRef .tc b) :=
  StableHlo.after_of_writes_sub hostOps5 _ writes5 h

/-! ## A buffer no segment up to a boundary writes holds the launch memory there -/

/-- Neither the first stretch nor the first region writes the buffer; and so on through the k-th of each. -/
abbrev Untouched1 (b : Ref sig .tc) : Prop := b ∉ written0 ∧ (∀ w, Pipeline.arrRef spec0 w ≠ b)
abbrev Untouched2 (b : Ref sig .tc) : Prop := Untouched1 b ∧ b ∉ written1 ∧ (∀ w, Pipeline.arrRef spec1 w ≠ b)
abbrev Untouched3 (b : Ref sig .tc) : Prop := Untouched2 b ∧ b ∉ written2 ∧ (∀ w, Pipeline.arrRef spec2 w ≠ b)
abbrev Untouched4 (b : Ref sig .tc) : Prop := Untouched3 b ∧ b ∉ written3 ∧ (∀ w, Pipeline.arrRef spec3 w ≠ b)
abbrev Untouched5 (b : Ref sig .tc) : Prop := Untouched4 b ∧ b ∉ written4 ∧ (∀ w, Pipeline.arrRef spec4 w ≠ b)

theorem at2 (b : Ref sig .tc) (h : Untouched1 b) : W2 m ρ c (Proc.devRef .tc b) = m ((c : Thread nD τ).loc b) :=
  (W2_of_ne m ρ c b h.2).trans (host0 m ρ c b h.1)
theorem at4 (b : Ref sig .tc) (h : Untouched2 b) : W4 m ρ c (Proc.devRef .tc b) = m ((c : Thread nD τ).loc b) :=
  (W4_of_ne m ρ c b h.2.2).trans ((host1 m ρ c b h.2.1).trans (at2 m ρ c b h.1))
theorem at6 (b : Ref sig .tc) (h : Untouched3 b) : W6 m ρ c (Proc.devRef .tc b) = m ((c : Thread nD τ).loc b) :=
  (W6_of_ne m ρ c b h.2.2).trans ((host2 m ρ c b h.2.1).trans (at4 m ρ c b h.1))
theorem at8 (b : Ref sig .tc) (h : Untouched4 b) : W8 m ρ c (Proc.devRef .tc b) = m ((c : Thread nD τ).loc b) :=
  (W8_of_ne m ρ c b h.2.2).trans ((host3 m ρ c b h.2.1).trans (at6 m ρ c b h.1))
theorem at10 (b : Ref sig .tc) (h : Untouched5 b) : W10 m ρ c (Proc.devRef .tc b) = m ((c : Thread nD τ).loc b) :=
  (W10_of_ne m ρ c b h.2.2).trans ((host4 m ρ c b h.2.1).trans (at8 m ρ c b h.1))

/-! ## A buffer written in the first stretch only holds at a later boundary what the first stretch left -/

/-- After the first stretch: the first region does not write the buffer; nor the next stretch and region; and so on. -/
abbrev AfterFirst0 (b : Ref sig .tc) : Prop := ∀ w, Pipeline.arrRef spec0 w ≠ b
abbrev AfterFirst1 (b : Ref sig .tc) : Prop := AfterFirst0 b ∧ b ∉ written1 ∧ (∀ w, Pipeline.arrRef spec1 w ≠ b)
abbrev AfterFirst2 (b : Ref sig .tc) : Prop := AfterFirst1 b ∧ b ∉ written2 ∧ (∀ w, Pipeline.arrRef spec2 w ≠ b)
abbrev AfterFirst3 (b : Ref sig .tc) : Prop := AfterFirst2 b ∧ b ∉ written3 ∧ (∀ w, Pipeline.arrRef spec3 w ≠ b)

theorem first2 (b : Ref sig .tc) (h : AfterFirst0 b) : W2 m ρ c (Proc.devRef .tc b) = W1 m ρ c (Proc.devRef .tc b) :=
  W2_of_ne m ρ c b h
theorem first4 (b : Ref sig .tc) (h : AfterFirst1 b) : W4 m ρ c (Proc.devRef .tc b) = W1 m ρ c (Proc.devRef .tc b) :=
  (W4_of_ne m ρ c b h.2.2).trans ((host1 m ρ c b h.2.1).trans (first2 m ρ c b h.1))
theorem first6 (b : Ref sig .tc) (h : AfterFirst2 b) : W6 m ρ c (Proc.devRef .tc b) = W1 m ρ c (Proc.devRef .tc b) :=
  (W6_of_ne m ρ c b h.2.2).trans ((host2 m ρ c b h.2.1).trans (first4 m ρ c b h.1))
theorem first8 (b : Ref sig .tc) (h : AfterFirst3 b) : W8 m ρ c (Proc.devRef .tc b) = W1 m ρ c (Proc.devRef .tc b) :=
  (W8_of_ne m ρ c b h.2.2).trans ((host3 m ρ c b h.2.1).trans (first6 m ρ c b h.1))

end Cert.KernelIdeal.Leaves

end
-- ==== Proof.Region1.lean ====
/-
  Region 1: the perceptron of a 2000-row block is the block of the perceptron.

  The region's grid has 25 points. At point t the first window stages rows 2000·t … 2000·t + 1999 of the input array,
  the four parameter windows stage their whole arrays at every point, and the output window writes back rows
  2000·t … 2000·t + 1999 of the result. The body computes, for its block x, the rectified two-layer map of x: an entry
  (p, q) of it depends on row p of x only, and row p of the block is row 2000·t + p of the input. So what point t writes
  back is block t of the whole-array perceptron of the region's input arrays; the 25 blocks tile the 50000 rows, hence
  the result array ends as that function, entry by entry.
-/
import proofs.«145081_j2018634629569_1_alg».proof.Proof.Gen.KernelIdeal.Frame
import proofs.«145081_j2018634629569_1_alg».proof.Proof.LibMlpAt

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))
variable (wA : DotDims.WF S50000x512 S512x512 S50000x512 [1] [0] [0] [1] [] [])
  (wB : DotDims.WF S50000x512 S512x512 S50000x512 [1] [0] [0] [1] [] [])

/-- The whole-array perceptron of the arrays the region is entered with. -/
abbrev whole (c : Dev nD) : S50000x512.Idx → Elt Ideal .f32 :=
  Cert.Mlp.mlpHost wA wB bcast_S1x512_S50000x512_0_1 bcast_S_S50000x512
    (V c main_v79) (V c main_v53) (V c main_v80) (V c main_v57) (V c main_v81)

theorem zero2 : (![0, 0] : Fin 2 → Nat) = fun _ => 0 := funext fun a => by fin_cases a <;> rfl

/-- The body's stored value is the tile spelling of the perceptron of its loaded blocks. -/
theorem pay_tile (x0 : FVec Ideal S2000x512 .f32) (x1 : FVec Ideal S512x512 .f32) (x2 : FVec Ideal S1x512 .f32)
    (x3 : FVec Ideal S512x512 .f32) (x4 : FVec Ideal S1x512 .f32) :
    k1_pay1 x0 x1 x2 x3 x4 = Cert.Mlp.mlpTile dot_S2000x512_S512x512_S2000x512_1_0_0_1_n_n_wf dot_S2000x512_S512x512_S2000x512_1_0_0_1_n_n_wf
      broadcasts_S1x512_S2000x512 bitsLt_bf16_f32 x0 x1 x2 x3 x4 := by
  unfold k1_pay1
  simp only [shapeCast_self]
  rfl

/-- A tile against the whole array: if row p of the tile's input is row r of the array's, entry (p, q) of the tile's
    perceptron is entry (r, q) of the array's. -/
theorem tile_row (X0 : FVec Ideal S50000x512 .f32) (x0 : FVec Ideal S2000x512 .f32) (x1 : FVec Ideal S512x512 .f32) (x2 : FVec Ideal S1x512 .f32)
    (x3 : FVec Ideal S512x512 .f32) (x4 : FVec Ideal S1x512 .f32) (p : Fin 2000) (q : Fin 512) (r : Fin 50000)
    (hrow : ∀ a : Fin 512, x0 (ix2 p a) = X0 (ix2 r a)) :
    k1_pay1 x0 x1 x2 x3 x4 (ix2 p q)
      = Cert.Mlp.mlpHost wA wB bcast_S1x512_S50000x512_0_1 bcast_S_S50000x512 X0 x1 x2 x3 x4 (ix2 r q) := by
  rw [pay_tile, Cert.Mlp.mlpTile_at, Cert.Mlp.mlpHost_at]
  exact Cert.Mlp.mlpVal_congr_row _ _ _ _ _ _ _ _ hrow _

/-- The index maps over the grid: the first window and the output window move together along the rows, every other
    block index is zero, and the row-block index stays below 25. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) < 25 :=
  (by decide +kernel : ∀ t : Fin grid1.N, _)

/-- Every row block is some point's. -/
theorem idx_onto : ∀ b : Fin 25, ∃ t : Fin cfg1.N, win1_5.index t = ![b.val, 0] :=
  (by decide +kernel : ∀ b : Fin 25, ∃ t : Fin grid1.N, win1_5.index t = ![b.val, 0])

/-- What point t writes back is block t of the whole-array perceptron. -/
theorem flushed_eq (c : Dev nD) (t : Fin cfg1.N) :
    (dat1 V c).flushed 5 t = ((cfg1.win 5).blk t).view.read (Elt Ideal) (whole V wA wB c) := by
  show (cfg1.win 5).cut (grid1.coords t) ((dat1 V c).after 5 t) = _
  rw [after1_5]
  unfold out1_5
  rw [View.canon_unit_zero zero2]
  simp only [View.ld_unit_zero (S := S2000x512) zero2, View.ld_unit_zero (S := S512x512) zero2, View.ld_unit_zero (S := S1x512) zero2,
    View.ld_unit_zero (S := S512x512) zero2]
  obtain ⟨e00, e01, e10, e11, e20, e21, e30, e31, e40, e41, e51, e5lt⟩ := idx_facts t
  funext j
  obtain ⟨p, q, rfl⟩ : ∃ (p : Fin 2000) (q : Fin 512), j = ix2 p q := ⟨j 0, j 1, eq_ix2 j⟩
  show k1_pay1 (iblk1 V c 0 t) (iblk1 V c 1 t) (iblk1 V c 2 t) (iblk1 V c 3 t) (iblk1 V c 4 t) (ix2 p q)
    = whole V wA wB c (((cfg1.win 5).blk t).view.emb (ix2 p q))
  have h1 : iblk1 V c 1 t = V c main_v53 := by
    funext y
    show V c main_v53 (((cfg1.win 1).blk t).view.emb y) = V c main_v53 y
    refine congrArg _ (funext fun a => Fin.ext ?_)
    match a with
    | ⟨0, _⟩ => show win1_1.index t (0 : Fin 2) * 512 + 1 * (y 0).val = (y 0).val; omega
    | ⟨1, _⟩ => show win1_1.index t (1 : Fin 2) * 512 + 1 * (y 1).val = (y 1).val; omega
  have h2 : iblk1 V c 2 t = V c main_v80 := by
    funext y
    show V c main_v80 (((cfg1.win 2).blk t).view.emb y) = V c main_v80 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 512 + 1 * (y 1).val = (y 1).val; omega
  have h3 : iblk1 V c 3 t = V c main_v57 := by
    funext y
    show V c main_v57 (((cfg1.win 3).blk t).view.emb y) = V c main_v57 y
    refine congrArg _ (funext fun a => Fin.ext ?_)
    match a with
    | ⟨0, _⟩ => show win1_3.index t (0 : Fin 2) * 512 + 1 * (y 0).val = (y 0).val; omega
    | ⟨1, _⟩ => show win1_3.index t (1 : Fin 2) * 512 + 1 * (y 1).val = (y 1).val; omega
  have h4 : iblk1 V c 4 t = V c main_v81 := by
    funext y
    show V c main_v81 (((cfg1.win 4).blk t).view.emb y) = V c main_v81 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 512 + 1 * (y 1).val = (y 1).val; omega
  have hr : win1_5.index t (0 : Fin 2) * 2000 + p.val < 50000 := by have := p.isLt; omega
  have h5 : ((cfg1.win 5).blk t).view.emb (ix2 p q) = ix2 (⟨win1_5.index t (0 : Fin 2) * 2000 + p.val, hr⟩ : Fin 50000) q := by
    funext a; apply Fin.ext
    match a with
    | ⟨0, _⟩ => show win1_5.index t (0 : Fin 2) * 2000 + 1 * p.val = win1_5.index t (0 : Fin 2) * 2000 + p.val; omega
    | ⟨1, _⟩ => show win1_5.index t (1 : Fin 2) * 512 + 1 * q.val = q.val; omega
  rw [h1, h2, h3, h4, h5]
  refine tile_row wA wB (V c main_v79) (iblk1 V c 0 t) (V c main_v53) (V c main_v80) (V c main_v57) (V c main_v81) p q _ fun a => ?_
  show V c main_v79 (((cfg1.win 0).blk t).view.emb (ix2 p a)) = V c main_v79 (ix2 _ a)
  refine congrArg _ (funext fun b => Fin.ext ?_)
  match b with
  | ⟨0, _⟩ => show win1_0.index t (0 : Fin 2) * 2000 + 1 * p.val = win1_5.index t (0 : Fin 2) * 2000 + p.val; omega
  | ⟨1, _⟩ => show win1_0.index t (1 : Fin 2) * 512 + 1 * a.val = a.val; omega

/-- An entry of the result array lies in point t's block iff its coordinates lie in the block's ranges. -/
theorem mem_blk (t : Fin cfg1.N) (i : S50000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v82).slice (win1_5.rect t)).set ↔ _
  rw [View.set_slice_whole, Rect.mem_set_unit]
  exact Iff.rfl

/-- The result array after the region: the whole-array perceptron of the arrays it was entered with. -/
theorem final (c : Dev nD) : (dat1 V c).arrAt 5 cfg1.N = whole V wA wB c :=
  (dat1 V c).arrAt_eq_of_cover 5 (whole V wA wB c) (fun t _ => flushed_eq V wA wB c t) fun i => by
    have hi0 : (i 0).val < 50000 := (i 0).isLt
    have hi1 : (i 1).val < 512 := (i 1).isLt
    obtain ⟨t, ht⟩ := idx_onto ⟨(i 0).val / 2000, by omega⟩
    have q0 : win1_5.index t (0 : Fin 2) = (i 0).val / 2000 := congrFun ht 0
    have q1 : win1_5.index t (1 : Fin 2) = 0 := congrFun ht 1
    refine ⟨t, flush1_5 t, ?_⟩
    rw [mem_blk]
    intro a
    match a with
    | ⟨0, _⟩ => show win1_5.index t (0 : Fin 2) * 2000 ≤ (i 0).val ∧ (i 0).val < win1_5.index t (0 : Fin 2) * 2000 + 2000; omega
    | ⟨1, _⟩ => show win1_5.index t (1 : Fin 2) * 512 ≤ (i 1).val ∧ (i 1).val < win1_5.index t (1 : Fin 2) * 512 + 512; omega

end Cert.KernelIdeal.Region1

end
-- ==== Proof.Bridge1.lean ====
/-
  Block 2: the kernel's second region ends at the reference's second perceptron output.

  Between the previous region and this one both programs normalise the previous output column by column (the mean
  over the 50000 rows, the centred square's mean, the reciprocal square root of that plus a small constant, the scale
  and shift rows of this block), gather the source rows of the result, sum them into the target rows and add the
  result: the same operations on equal inputs, given that the previous outputs are equal. The kernel's stretch reads the
  previous region's result array, the scale and shift rows it sliced in the stretch before, the two index vectors of
  the first stretch and four parameter arrays; each is walked back to where it was written. The reference then applies
  the perceptron on the host, the kernel through its region; a bias reshaped to one row is the bias broadcast along a
  new unit axis.
-/
import proofs.«145081_j2018634629569_1_alg».proof.Proof.Gen.KernelIdeal.Frame
import proofs.«145081_j2018634629569_1_alg».proof.Proof.Gen.ReferenceIdeal.Run
import proofs.«145081_j2018634629569_1_alg».proof.Proof.LibMlpAt
import proofs.«145081_j2018634629569_1_alg».proof.Proof.Leaves
import proofs.«145081_j2018634629569_1_alg».proof.Proof.Region1
import proofs.«145081_j2018634629569_1_alg».proof.Proof.BridgeBase

set_option maxRecDepth 16384

noncomputable section

namespace Cert.Bridge

open Cert.KernelIdeal Cert.KernelIdeal.Gen
open Cert.ReferenceIdeal.Value (res_main_v1 res_main_v3 res_main_v35 res_main_v38 res_main_v41 res_main_v60 res_main_v100)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)
variable (V0' : Valuation Cert.ReferenceIdeal.τ Cert.ReferenceIdeal.sig (Elt Ideal))

set_option maxHeartbeats 4000000 in
/-- Given the previous region's result, the perceptron of the arrays this region is entered with is the reference's
    perceptron output of this block. -/
theorem stage1 (hag : Agree m c V0') (hprev : W2 m ρ c (Proc.devRef .tc main_v26) = res_main_v35 V0') :
    Region1.whole (V3 m ρ) Cert.ReferenceIdeal.Gen.dot_S50000x512_S512x512_S50000x512_1_0_0_1_n_n_wf
      Cert.ReferenceIdeal.Gen.dot_S50000x512_S512x512_S50000x512_1_0_0_1_n_n_wf c = res_main_v100 V0' := by
  unfold res_main_v100 res_main_v60 res_main_v41 res_main_v38
  show Cert.Mlp.mlpHost _ _ bcast_S1x512_S50000x512_0_1 bcast_S_S50000x512
      (W3 m ρ c (Proc.devRef .tc main_v79)) (W3 m ρ c (Proc.devRef .tc main_v53)) (W3 m ρ c (Proc.devRef .tc main_v80))
      (W3 m ρ c (Proc.devRef .tc main_v57)) (W3 m ρ c (Proc.devRef .tc main_v81)) = _
  simp only [W3, hostOps1]
  after_results_simp
  rw [hprev, Leaves.first2 m ρ c main_v1 (by decide), Leaves.first2 m ρ c main_v3 (by decide),
    v1_eq m ρ c V0' hag, v3_eq m ρ c V0' hag,
    Leaves.at2 m ρ c main_arg7 (by decide), Leaves.at2 m ρ c main_arg8 (by decide), Leaves.at2 m ρ c main_arg9 (by decide), Leaves.at2 m ρ c main_arg10 (by decide),
    W2_of_ne m ρ c main_v5 (by decide), W2_of_ne m ρ c main_v7 (by decide)]
  simp only [W1, hostOps0]
  after_results_simp
  rw [hag.a7, hag.a8, hag.a9, hag.a10, hag.a11, hag.a12]
  refine (Cert.Mlp.mlpHost_rowCast _ _ _ _ bcast_S512_S1x512_1 shapeCasts_S512_S1x512 _ _ _ _ _).trans ?_
  rfl

/-- So this region's result array is the reference's perceptron output of this block. -/
theorem out1 (hag : Agree m c V0') (hprev : W2 m ρ c (Proc.devRef .tc main_v26) = res_main_v35 V0') :
    W4 m ρ c (Proc.devRef .tc main_v82) = res_main_v100 V0' :=
  (W4_arr m ρ c 5).trans ((Region1.final (V3 m ρ) _ _ c).trans (stage1 m ρ c V0' hag hprev))

end Cert.Bridge

end
-- ==== Proof.Region2.lean ====
/-
  Region 2: the perceptron of a 2000-row block is the block of the perceptron.

  The region's grid has 25 points. At point t the first window stages rows 2000·t … 2000·t + 1999 of the input array,
  the four parameter windows stage their whole arrays at every point, and the output window writes back rows
  2000·t … 2000·t + 1999 of the result. The body computes, for its block x, the rectified two-layer map of x: an entry
  (p, q) of it depends on row p of x only, and row p of the block is row 2000·t + p of the input. So what point t writes
  back is block t of the whole-array perceptron of the region's input arrays; the 25 blocks tile the 50000 rows, hence
  the result array ends as that function, entry by entry.
-/
import proofs.«145081_j2018634629569_1_alg».proof.Proof.Gen.KernelIdeal.Frame
import proofs.«145081_j2018634629569_1_alg».proof.Proof.LibMlpAt

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))
variable (wA : DotDims.WF S50000x512 S512x512 S50000x512 [1] [0] [0] [1] [] [])
  (wB : DotDims.WF S50000x512 S512x512 S50000x512 [1] [0] [0] [1] [] [])

/-- The whole-array perceptron of the arrays the region is entered with. -/
abbrev whole (c : Dev nD) : S50000x512.Idx → Elt Ideal .f32 :=
  Cert.Mlp.mlpHost wA wB bcast_S1x512_S50000x512_0_1 bcast_S_S50000x512
    (V c main_v135) (V c main_v109) (V c main_v136) (V c main_v113) (V c main_v137)

theorem zero2 : (![0, 0] : Fin 2 → Nat) = fun _ => 0 := funext fun a => by fin_cases a <;> rfl

/-- The body's stored value is the tile spelling of the perceptron of its loaded blocks. -/
theorem pay_tile (x0 : FVec Ideal S2000x512 .f32) (x1 : FVec Ideal S512x512 .f32) (x2 : FVec Ideal S1x512 .f32)
    (x3 : FVec Ideal S512x512 .f32) (x4 : FVec Ideal S1x512 .f32) :
    k2_pay1 x0 x1 x2 x3 x4 = Cert.Mlp.mlpTile dot_S2000x512_S512x512_S2000x512_1_0_0_1_n_n_wf dot_S2000x512_S512x512_S2000x512_1_0_0_1_n_n_wf
      broadcasts_S1x512_S2000x512 bitsLt_bf16_f32 x0 x1 x2 x3 x4 := by
  unfold k2_pay1
  simp only [shapeCast_self]
  rfl

/-- A tile against the whole array: if row p of the tile's input is row r of the array's, entry (p, q) of the tile's
    perceptron is entry (r, q) of the array's. -/
theorem tile_row (X0 : FVec Ideal S50000x512 .f32) (x0 : FVec Ideal S2000x512 .f32) (x1 : FVec Ideal S512x512 .f32) (x2 : FVec Ideal S1x512 .f32)
    (x3 : FVec Ideal S512x512 .f32) (x4 : FVec Ideal S1x512 .f32) (p : Fin 2000) (q : Fin 512) (r : Fin 50000)
    (hrow : ∀ a : Fin 512, x0 (ix2 p a) = X0 (ix2 r a)) :
    k2_pay1 x0 x1 x2 x3 x4 (ix2 p q)
      = Cert.Mlp.mlpHost wA wB bcast_S1x512_S50000x512_0_1 bcast_S_S50000x512 X0 x1 x2 x3 x4 (ix2 r q) := by
  rw [pay_tile, Cert.Mlp.mlpTile_at, Cert.Mlp.mlpHost_at]
  exact Cert.Mlp.mlpVal_congr_row _ _ _ _ _ _ _ _ hrow _

/-- The index maps over the grid: the first window and the output window move together along the rows, every other
    block index is zero, and the row-block index stays below 25. -/
theorem idx_facts : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) < 25 :=
  (by decide +kernel : ∀ t : Fin grid2.N, _)

/-- Every row block is some point's. -/
theorem idx_onto : ∀ b : Fin 25, ∃ t : Fin cfg2.N, win2_5.index t = ![b.val, 0] :=
  (by decide +kernel : ∀ b : Fin 25, ∃ t : Fin grid2.N, win2_5.index t = ![b.val, 0])

/-- What point t writes back is block t of the whole-array perceptron. -/
theorem flushed_eq (c : Dev nD) (t : Fin cfg2.N) :
    (dat2 V c).flushed 5 t = ((cfg2.win 5).blk t).view.read (Elt Ideal) (whole V wA wB c) := by
  show (cfg2.win 5).cut (grid2.coords t) ((dat2 V c).after 5 t) = _
  rw [after2_5]
  unfold out2_5
  rw [View.canon_unit_zero zero2]
  simp only [View.ld_unit_zero (S := S2000x512) zero2, View.ld_unit_zero (S := S512x512) zero2, View.ld_unit_zero (S := S1x512) zero2,
    View.ld_unit_zero (S := S512x512) zero2]
  obtain ⟨e00, e01, e10, e11, e20, e21, e30, e31, e40, e41, e51, e5lt⟩ := idx_facts t
  funext j
  obtain ⟨p, q, rfl⟩ : ∃ (p : Fin 2000) (q : Fin 512), j = ix2 p q := ⟨j 0, j 1, eq_ix2 j⟩
  show k2_pay1 (iblk2 V c 0 t) (iblk2 V c 1 t) (iblk2 V c 2 t) (iblk2 V c 3 t) (iblk2 V c 4 t) (ix2 p q)
    = whole V wA wB c (((cfg2.win 5).blk t).view.emb (ix2 p q))
  have h1 : iblk2 V c 1 t = V c main_v109 := by
    funext y
    show V c main_v109 (((cfg2.win 1).blk t).view.emb y) = V c main_v109 y
    refine congrArg _ (funext fun a => Fin.ext ?_)
    match a with
    | ⟨0, _⟩ => show win2_1.index t (0 : Fin 2) * 512 + 1 * (y 0).val = (y 0).val; omega
    | ⟨1, _⟩ => show win2_1.index t (1 : Fin 2) * 512 + 1 * (y 1).val = (y 1).val; omega
  have h2 : iblk2 V c 2 t = V c main_v136 := by
    funext y
    show V c main_v136 (((cfg2.win 2).blk t).view.emb y) = V c main_v136 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 512 + 1 * (y 1).val = (y 1).val; omega
  have h3 : iblk2 V c 3 t = V c main_v113 := by
    funext y
    show V c main_v113 (((cfg2.win 3).blk t).view.emb y) = V c main_v113 y
    refine congrArg _ (funext fun a => Fin.ext ?_)
    match a with
    | ⟨0, _⟩ => show win2_3.index t (0 : Fin 2) * 512 + 1 * (y 0).val = (y 0).val; omega
    | ⟨1, _⟩ => show win2_3.index t (1 : Fin 2) * 512 + 1 * (y 1).val = (y 1).val; omega
  have h4 : iblk2 V c 4 t = V c main_v137 := by
    funext y
    show V c main_v137 (((cfg2.win 4).blk t).view.emb y) = V c main_v137 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 512 + 1 * (y 1).val = (y 1).val; omega
  have hr : win2_5.index t (0 : Fin 2) * 2000 + p.val < 50000 := by have := p.isLt; omega
  have h5 : ((cfg2.win 5).blk t).view.emb (ix2 p q) = ix2 (⟨win2_5.index t (0 : Fin 2) * 2000 + p.val, hr⟩ : Fin 50000) q := by
    funext a; apply Fin.ext
    match a with
    | ⟨0, _⟩ => show win2_5.index t (0 : Fin 2) * 2000 + 1 * p.val = win2_5.index t (0 : Fin 2) * 2000 + p.val; omega
    | ⟨1, _⟩ => show win2_5.index t (1 : Fin 2) * 512 + 1 * q.val = q.val; omega
  rw [h1, h2, h3, h4, h5]
  refine tile_row wA wB (V c main_v135) (iblk2 V c 0 t) (V c main_v109) (V c main_v136) (V c main_v113) (V c main_v137) p q _ fun a => ?_
  show V c main_v135 (((cfg2.win 0).blk t).view.emb (ix2 p a)) = V c main_v135 (ix2 _ a)
  refine congrArg _ (funext fun b => Fin.ext ?_)
  match b with
  | ⟨0, _⟩ => show win2_0.index t (0 : Fin 2) * 2000 + 1 * p.val = win2_5.index t (0 : Fin 2) * 2000 + p.val; omega
  | ⟨1, _⟩ => show win2_0.index t (1 : Fin 2) * 512 + 1 * a.val = a.val; omega

/-- An entry of the result array lies in point t's block iff its coordinates lie in the block's ranges. -/
theorem mem_blk (t : Fin cfg2.N) (i : S50000x512.Idx) :
    i ∈ ((cfg2.win 5).blk t).view.set ↔ ∀ a : Fin 2, win2_5.index t a * S2000x512.size a ≤ (i a).val ∧ (i a).val < win2_5.index t a * S2000x512.size a + S2000x512.size a := by
  show i ∈ ((View.whole main_v138).slice (win2_5.rect t)).set ↔ _
  rw [View.set_slice_whole, Rect.mem_set_unit]
  exact Iff.rfl

/-- The result array after the region: the whole-array perceptron of the arrays it was entered with. -/
theorem final (c : Dev nD) : (dat2 V c).arrAt 5 cfg2.N = whole V wA wB c :=
  (dat2 V c).arrAt_eq_of_cover 5 (whole V wA wB c) (fun t _ => flushed_eq V wA wB c t) fun i => by
    have hi0 : (i 0).val < 50000 := (i 0).isLt
    have hi1 : (i 1).val < 512 := (i 1).isLt
    obtain ⟨t, ht⟩ := idx_onto ⟨(i 0).val / 2000, by omega⟩
    have q0 : win2_5.index t (0 : Fin 2) = (i 0).val / 2000 := congrFun ht 0
    have q1 : win2_5.index t (1 : Fin 2) = 0 := congrFun ht 1
    refine ⟨t, flush2_5 t, ?_⟩
    rw [mem_blk]
    intro a
    match a with
    | ⟨0, _⟩ => show win2_5.index t (0 : Fin 2) * 2000 ≤ (i 0).val ∧ (i 0).val < win2_5.index t (0 : Fin 2) * 2000 + 2000; omega
    | ⟨1, _⟩ => show win2_5.index t (1 : Fin 2) * 512 ≤ (i 1).val ∧ (i 1).val < win2_5.index t (1 : Fin 2) * 512 + 512; omega

end Cert.KernelIdeal.Region2

end
-- ==== Proof.Bridge2.lean ====
/-
  Block 3: the kernel's third region ends at the reference's third perceptron output.

  Between the previous region and this one both programs normalise the previous output column by column (the mean
  over the 50000 rows, the centred square's mean, the reciprocal square root of that plus a small constant, the scale
  and shift rows of this block), gather the source rows of the result, sum them into the target rows and add the
  result: the same operations on equal inputs, given that the previous outputs are equal. The kernel's stretch reads the
  previous region's result array, the scale and shift rows it sliced in the stretch before, the two index vectors of
  the first stretch and four parameter arrays; each is walked back to where it was written. The reference then applies
  the perceptron on the host, the kernel through its region; a bias reshaped to one row is the bias broadcast along a
  new unit axis.
-/
import proofs.«145081_j2018634629569_1_alg».proof.Proof.Gen.KernelIdeal.Frame
import proofs.«145081_j2018634629569_1_alg».proof.Proof.Gen.ReferenceIdeal.Run
import proofs.«145081_j2018634629569_1_alg».proof.Proof.LibMlpAt
import proofs.«145081_j2018634629569_1_alg».proof.Proof.Leaves
import proofs.«145081_j2018634629569_1_alg».proof.Proof.Region2
import proofs.«145081_j2018634629569_1_alg».proof.Proof.BridgeBase

set_option maxRecDepth 16384

noncomputable section

namespace Cert.Bridge

open Cert.KernelIdeal Cert.KernelIdeal.Gen
open Cert.ReferenceIdeal.Value (res_main_v1 res_main_v3 res_main_v100 res_main_v103 res_main_v106 res_main_v125 res_main_v165)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)
variable (V0' : Valuation Cert.ReferenceIdeal.τ Cert.ReferenceIdeal.sig (Elt Ideal))

set_option maxHeartbeats 4000000 in
/-- Given the previous region's result, the perceptron of the arrays this region is entered with is the reference's
    perceptron output of this block. -/
theorem stage2 (hag : Agree m c V0') (hprev : W4 m ρ c (Proc.devRef .tc main_v82) = res_main_v100 V0') :
    Region2.whole (V5 m ρ) Cert.ReferenceIdeal.Gen.dot_S50000x512_S512x512_S50000x512_1_0_0_1_n_n_wf
      Cert.ReferenceIdeal.Gen.dot_S50000x512_S512x512_S50000x512_1_0_0_1_n_n_wf c = res_main_v165 V0' := by
  unfold res_main_v165 res_main_v125 res_main_v106 res_main_v103
  show Cert.Mlp.mlpHost _ _ bcast_S1x512_S50000x512_0_1 bcast_S_S50000x512
      (W5 m ρ c (Proc.devRef .tc main_v135)) (W5 m ρ c (Proc.devRef .tc main_v109)) (W5 m ρ c (Proc.devRef .tc main_v136))
      (W5 m ρ c (Proc.devRef .tc main_v113)) (W5 m ρ c (Proc.devRef .tc main_v137)) = _
  simp only [W5, hostOps2]
  after_results_simp
  rw [hprev, Leaves.first4 m ρ c main_v1 (by decide), Leaves.first4 m ρ c main_v3 (by decide),
    v1_eq m ρ c V0' hag, v3_eq m ρ c V0' hag,
    Leaves.at4 m ρ c main_arg7 (by decide), Leaves.at4 m ρ c main_arg8 (by decide), Leaves.at4 m ρ c main_arg9 (by decide), Leaves.at4 m ρ c main_arg10 (by decide),
    W4_of_ne m ρ c main_v61 (by decide), W4_of_ne m ρ c main_v63 (by decide)]
  simp only [W3, hostOps1]
  after_results_simp
  rw [Leaves.at2 m ρ c main_arg11 (by decide), Leaves.at2 m ρ c main_arg12 (by decide)]
  rw [hag.a7, hag.a8, hag.a9, hag.a10, hag.a11, hag.a12]
  refine (Cert.Mlp.mlpHost_rowCast _ _ _ _ bcast_S512_S1x512_1 shapeCasts_S512_S1x512 _ _ _ _ _).trans ?_
  rfl

/-- So this region's result array is the reference's perceptron output of this block. -/
theorem out2 (hag : Agree m c V0') (hprev : W4 m ρ c (Proc.devRef .tc main_v82) = res_main_v100 V0') :
    W6 m ρ c (Proc.devRef .tc main_v138) = res_main_v165 V0' :=
  (W6_arr m ρ c 5).trans ((Region2.final (V5 m ρ) _ _ c).trans (stage2 m ρ c V0' hag hprev))

end Cert.Bridge

end
-- ==== Proof.Region3.lean ====
/-
  Region 3: the perceptron of a 2000-row block is the block of the perceptron.

  The region's grid has 25 points. At point t the first window stages rows 2000·t … 2000·t + 1999 of the input array,
  the four parameter windows stage their whole arrays at every point, and the output window writes back rows
  2000·t … 2000·t + 1999 of the result. The body computes, for its block x, the rectified two-layer map of x: an entry
  (p, q) of it depends on row p of x only, and row p of the block is row 2000·t + p of the input. So what point t writes
  back is block t of the whole-array perceptron of the region's input arrays; the 25 blocks tile the 50000 rows, hence
  the result array ends as that function, entry by entry.
-/
import proofs.«145081_j2018634629569_1_alg».proof.Proof.Gen.KernelIdeal.Frame
import proofs.«145081_j2018634629569_1_alg».proof.Proof.LibMlpAt

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))
variable (wA : DotDims.WF S50000x512 S512x512 S50000x512 [1] [0] [0] [1] [] [])
  (wB : DotDims.WF S50000x512 S512x512 S50000x512 [1] [0] [0] [1] [] [])

/-- The whole-array perceptron of the arrays the region is entered with. -/
abbrev whole (c : Dev nD) : S50000x512.Idx → Elt Ideal .f32 :=
  Cert.Mlp.mlpHost wA wB bcast_S1x512_S50000x512_0_1 bcast_S_S50000x512
    (V c main_v191) (V c main_v165) (V c main_v192) (V c main_v169) (V c main_v193)

theorem zero2 : (![0, 0] : Fin 2 → Nat) = fun _ => 0 := funext fun a => by fin_cases a <;> rfl

/-- The body's stored value is the tile spelling of the perceptron of its loaded blocks. -/
theorem pay_tile (x0 : FVec Ideal S2000x512 .f32) (x1 : FVec Ideal S512x512 .f32) (x2 : FVec Ideal S1x512 .f32)
    (x3 : FVec Ideal S512x512 .f32) (x4 : FVec Ideal S1x512 .f32) :
    k3_pay1 x0 x1 x2 x3 x4 = Cert.Mlp.mlpTile dot_S2000x512_S512x512_S2000x512_1_0_0_1_n_n_wf dot_S2000x512_S512x512_S2000x512_1_0_0_1_n_n_wf
      broadcasts_S1x512_S2000x512 bitsLt_bf16_f32 x0 x1 x2 x3 x4 := by
  unfold k3_pay1
  simp only [shapeCast_self]
  rfl

/-- A tile against the whole array: if row p of the tile's input is row r of the array's, entry (p, q) of the tile's
    perceptron is entry (r, q) of the array's. -/
theorem tile_row (X0 : FVec Ideal S50000x512 .f32) (x0 : FVec Ideal S2000x512 .f32) (x1 : FVec Ideal S512x512 .f32) (x2 : FVec Ideal S1x512 .f32)
    (x3 : FVec Ideal S512x512 .f32) (x4 : FVec Ideal S1x512 .f32) (p : Fin 2000) (q : Fin 512) (r : Fin 50000)
    (hrow : ∀ a : Fin 512, x0 (ix2 p a) = X0 (ix2 r a)) :
    k3_pay1 x0 x1 x2 x3 x4 (ix2 p q)
      = Cert.Mlp.mlpHost wA wB bcast_S1x512_S50000x512_0_1 bcast_S_S50000x512 X0 x1 x2 x3 x4 (ix2 r q) := by
  rw [pay_tile, Cert.Mlp.mlpTile_at, Cert.Mlp.mlpHost_at]
  exact Cert.Mlp.mlpVal_congr_row _ _ _ _ _ _ _ _ hrow _

/-- The index maps over the grid: the first window and the output window move together along the rows, every other
    block index is zero, and the row-block index stays below 25. -/
theorem idx_facts : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) < 25 :=
  (by decide +kernel : ∀ t : Fin grid3.N, _)

/-- Every row block is some point's. -/
theorem idx_onto : ∀ b : Fin 25, ∃ t : Fin cfg3.N, win3_5.index t = ![b.val, 0] :=
  (by decide +kernel : ∀ b : Fin 25, ∃ t : Fin grid3.N, win3_5.index t = ![b.val, 0])

/-- What point t writes back is block t of the whole-array perceptron. -/
theorem flushed_eq (c : Dev nD) (t : Fin cfg3.N) :
    (dat3 V c).flushed 5 t = ((cfg3.win 5).blk t).view.read (Elt Ideal) (whole V wA wB c) := by
  show (cfg3.win 5).cut (grid3.coords t) ((dat3 V c).after 5 t) = _
  rw [after3_5]
  unfold out3_5
  rw [View.canon_unit_zero zero2]
  simp only [View.ld_unit_zero (S := S2000x512) zero2, View.ld_unit_zero (S := S512x512) zero2, View.ld_unit_zero (S := S1x512) zero2,
    View.ld_unit_zero (S := S512x512) zero2]
  obtain ⟨e00, e01, e10, e11, e20, e21, e30, e31, e40, e41, e51, e5lt⟩ := idx_facts t
  funext j
  obtain ⟨p, q, rfl⟩ : ∃ (p : Fin 2000) (q : Fin 512), j = ix2 p q := ⟨j 0, j 1, eq_ix2 j⟩
  show k3_pay1 (iblk3 V c 0 t) (iblk3 V c 1 t) (iblk3 V c 2 t) (iblk3 V c 3 t) (iblk3 V c 4 t) (ix2 p q)
    = whole V wA wB c (((cfg3.win 5).blk t).view.emb (ix2 p q))
  have h1 : iblk3 V c 1 t = V c main_v165 := by
    funext y
    show V c main_v165 (((cfg3.win 1).blk t).view.emb y) = V c main_v165 y
    refine congrArg _ (funext fun a => Fin.ext ?_)
    match a with
    | ⟨0, _⟩ => show win3_1.index t (0 : Fin 2) * 512 + 1 * (y 0).val = (y 0).val; omega
    | ⟨1, _⟩ => show win3_1.index t (1 : Fin 2) * 512 + 1 * (y 1).val = (y 1).val; omega
  have h2 : iblk3 V c 2 t = V c main_v192 := by
    funext y
    show V c main_v192 (((cfg3.win 2).blk t).view.emb y) = V c main_v192 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 512 + 1 * (y 1).val = (y 1).val; omega
  have h3 : iblk3 V c 3 t = V c main_v169 := by
    funext y
    show V c main_v169 (((cfg3.win 3).blk t).view.emb y) = V c main_v169 y
    refine congrArg _ (funext fun a => Fin.ext ?_)
    match a with
    | ⟨0, _⟩ => show win3_3.index t (0 : Fin 2) * 512 + 1 * (y 0).val = (y 0).val; omega
    | ⟨1, _⟩ => show win3_3.index t (1 : Fin 2) * 512 + 1 * (y 1).val = (y 1).val; omega
  have h4 : iblk3 V c 4 t = V c main_v193 := by
    funext y
    show V c main_v193 (((cfg3.win 4).blk t).view.emb y) = V c main_v193 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 512 + 1 * (y 1).val = (y 1).val; omega
  have hr : win3_5.index t (0 : Fin 2) * 2000 + p.val < 50000 := by have := p.isLt; omega
  have h5 : ((cfg3.win 5).blk t).view.emb (ix2 p q) = ix2 (⟨win3_5.index t (0 : Fin 2) * 2000 + p.val, hr⟩ : Fin 50000) q := by
    funext a; apply Fin.ext
    match a with
    | ⟨0, _⟩ => show win3_5.index t (0 : Fin 2) * 2000 + 1 * p.val = win3_5.index t (0 : Fin 2) * 2000 + p.val; omega
    | ⟨1, _⟩ => show win3_5.index t (1 : Fin 2) * 512 + 1 * q.val = q.val; omega
  rw [h1, h2, h3, h4, h5]
  refine tile_row wA wB (V c main_v191) (iblk3 V c 0 t) (V c main_v165) (V c main_v192) (V c main_v169) (V c main_v193) p q _ fun a => ?_
  show V c main_v191 (((cfg3.win 0).blk t).view.emb (ix2 p a)) = V c main_v191 (ix2 _ a)
  refine congrArg _ (funext fun b => Fin.ext ?_)
  match b with
  | ⟨0, _⟩ => show win3_0.index t (0 : Fin 2) * 2000 + 1 * p.val = win3_5.index t (0 : Fin 2) * 2000 + p.val; omega
  | ⟨1, _⟩ => show win3_0.index t (1 : Fin 2) * 512 + 1 * a.val = a.val; omega

/-- An entry of the result array lies in point t's block iff its coordinates lie in the block's ranges. -/
theorem mem_blk (t : Fin cfg3.N) (i : S50000x512.Idx) :
    i ∈ ((cfg3.win 5).blk t).view.set ↔ ∀ a : Fin 2, win3_5.index t a * S2000x512.size a ≤ (i a).val ∧ (i a).val < win3_5.index t a * S2000x512.size a + S2000x512.size a := by
  show i ∈ ((View.whole main_v194).slice (win3_5.rect t)).set ↔ _
  rw [View.set_slice_whole, Rect.mem_set_unit]
  exact Iff.rfl

/-- The result array after the region: the whole-array perceptron of the arrays it was entered with. -/
theorem final (c : Dev nD) : (dat3 V c).arrAt 5 cfg3.N = whole V wA wB c :=
  (dat3 V c).arrAt_eq_of_cover 5 (whole V wA wB c) (fun t _ => flushed_eq V wA wB c t) fun i => by
    have hi0 : (i 0).val < 50000 := (i 0).isLt
    have hi1 : (i 1).val < 512 := (i 1).isLt
    obtain ⟨t, ht⟩ := idx_onto ⟨(i 0).val / 2000, by omega⟩
    have q0 : win3_5.index t (0 : Fin 2) = (i 0).val / 2000 := congrFun ht 0
    have q1 : win3_5.index t (1 : Fin 2) = 0 := congrFun ht 1
    refine ⟨t, flush3_5 t, ?_⟩
    rw [mem_blk]
    intro a
    match a with
    | ⟨0, _⟩ => show win3_5.index t (0 : Fin 2) * 2000 ≤ (i 0).val ∧ (i 0).val < win3_5.index t (0 : Fin 2) * 2000 + 2000; omega
    | ⟨1, _⟩ => show win3_5.index t (1 : Fin 2) * 512 ≤ (i 1).val ∧ (i 1).val < win3_5.index t (1 : Fin 2) * 512 + 512; omega

end Cert.KernelIdeal.Region3

end
-- ==== Proof.Bridge3.lean ====
/-
  Block 4: the kernel's fourth region ends at the reference's fourth perceptron output.

  Between the previous region and this one both programs normalise the previous output column by column (the mean
  over the 50000 rows, the centred square's mean, the reciprocal square root of that plus a small constant, the scale
  and shift rows of this block), gather the source rows of the result, sum them into the target rows and add the
  result: the same operations on equal inputs, given that the previous outputs are equal. The kernel's stretch reads the
  previous region's result array, the scale and shift rows it sliced in the stretch before, the two index vectors of
  the first stretch and four parameter arrays; each is walked back to where it was written. The reference then applies
  the perceptron on the host, the kernel through its region; a bias reshaped to one row is the bias broadcast along a
  new unit axis.
-/
import proofs.«145081_j2018634629569_1_alg».proof.Proof.Gen.KernelIdeal.Frame
import proofs.«145081_j2018634629569_1_alg».proof.Proof.Gen.ReferenceIdeal.Run
import proofs.«145081_j2018634629569_1_alg».proof.Proof.LibMlpAt
import proofs.«145081_j2018634629569_1_alg».proof.Proof.Leaves
import proofs.«145081_j2018634629569_1_alg».proof.Proof.Region3
import proofs.«145081_j2018634629569_1_alg».proof.Proof.BridgeBase

set_option maxRecDepth 16384

noncomputable section

namespace Cert.Bridge

open Cert.KernelIdeal Cert.KernelIdeal.Gen
open Cert.ReferenceIdeal.Value (res_main_v1 res_main_v3 res_main_v165 res_main_v168 res_main_v171 res_main_v190 res_main_v230)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)
variable (V0' : Valuation Cert.ReferenceIdeal.τ Cert.ReferenceIdeal.sig (Elt Ideal))

set_option maxHeartbeats 4000000 in
/-- Given the previous region's result, the perceptron of the arrays this region is entered with is the reference's
    perceptron output of this block. -/
theorem stage3 (hag : Agree m c V0') (hprev : W6 m ρ c (Proc.devRef .tc main_v138) = res_main_v165 V0') :
    Region3.whole (V7 m ρ) Cert.ReferenceIdeal.Gen.dot_S50000x512_S512x512_S50000x512_1_0_0_1_n_n_wf
      Cert.ReferenceIdeal.Gen.dot_S50000x512_S512x512_S50000x512_1_0_0_1_n_n_wf c = res_main_v230 V0' := by
  unfold res_main_v230 res_main_v190 res_main_v171 res_main_v168
  show Cert.Mlp.mlpHost _ _ bcast_S1x512_S50000x512_0_1 bcast_S_S50000x512
      (W7 m ρ c (Proc.devRef .tc main_v191)) (W7 m ρ c (Proc.devRef .tc main_v165)) (W7 m ρ c (Proc.devRef .tc main_v192))
      (W7 m ρ c (Proc.devRef .tc main_v169)) (W7 m ρ c (Proc.devRef .tc main_v193)) = _
  simp only [W7, hostOps3]
  after_results_simp
  rw [hprev, Leaves.first6 m ρ c main_v1 (by decide), Leaves.first6 m ρ c main_v3 (by decide),
    v1_eq m ρ c V0' hag, v3_eq m ρ c V0' hag,
    Leaves.at6 m ρ c main_arg7 (by decide), Leaves.at6 m ρ c main_arg8 (by decide), Leaves.at6 m ρ c main_arg9 (by decide), Leaves.at6 m ρ c main_arg10 (by decide),
    W6_of_ne m ρ c main_v117 (by decide), W6_of_ne m ρ c main_v119 (by decide)]
  simp only [W5, hostOps2]
  after_results_simp
  rw [Leaves.at4 m ρ c main_arg11 (by decide), Leaves.at4 m ρ c main_arg12 (by decide)]
  rw [hag.a7, hag.a8, hag.a9, hag.a10, hag.a11, hag.a12]
  refine (Cert.Mlp.mlpHost_rowCast _ _ _ _ bcast_S512_S1x512_1 shapeCasts_S512_S1x512 _ _ _ _ _).trans ?_
  rfl

/-- So this region's result array is the reference's perceptron output of this block. -/
theorem out3 (hag : Agree m c V0') (hprev : W6 m ρ c (Proc.devRef .tc main_v138) = res_main_v165 V0') :
    W8 m ρ c (Proc.devRef .tc main_v194) = res_main_v230 V0' :=
  (W8_arr m ρ c 5).trans ((Region3.final (V7 m ρ) _ _ c).trans (stage3 m ρ c V0' hag hprev))

end Cert.Bridge

end
-- ==== Proof.Region4.lean ====
/-
  Region 4: the perceptron of a 2000-row block is the block of the perceptron.

  The region's grid has 25 points. At point t the first window stages rows 2000·t … 2000·t + 1999 of the input array,
  the four parameter windows stage their whole arrays at every point, and the output window writes back rows
  2000·t … 2000·t + 1999 of the result. The body computes, for its block x, the rectified two-layer map of x: an entry
  (p, q) of it depends on row p of x only, and row p of the block is row 2000·t + p of the input. So what point t writes
  back is block t of the whole-array perceptron of the region's input arrays; the 25 blocks tile the 50000 rows, hence
  the result array ends as that function, entry by entry.
-/
import proofs.«145081_j2018634629569_1_alg».proof.Proof.Gen.KernelIdeal.Frame
import proofs.«145081_j2018634629569_1_alg».proof.Proof.LibMlpAt

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))
variable (wA : DotDims.WF S50000x512 S512x512 S50000x512 [1] [0] [0] [1] [] [])
  (wB : DotDims.WF S50000x512 S512x512 S50000x512 [1] [0] [0] [1] [] [])

/-- The whole-array perceptron of the arrays the region is entered with. -/
abbrev whole (c : Dev nD) : S50000x512.Idx → Elt Ideal .f32 :=
  Cert.Mlp.mlpHost wA wB bcast_S1x512_S50000x512_0_1 bcast_S_S50000x512
    (V c main_v247) (V c main_v221) (V c main_v248) (V c main_v225) (V c main_v249)

theorem zero2 : (![0, 0] : Fin 2 → Nat) = fun _ => 0 := funext fun a => by fin_cases a <;> rfl

/-- The body's stored value is the tile spelling of the perceptron of its loaded blocks. -/
theorem pay_tile (x0 : FVec Ideal S2000x512 .f32) (x1 : FVec Ideal S512x512 .f32) (x2 : FVec Ideal S1x512 .f32)
    (x3 : FVec Ideal S512x512 .f32) (x4 : FVec Ideal S1x512 .f32) :
    k4_pay1 x0 x1 x2 x3 x4 = Cert.Mlp.mlpTile dot_S2000x512_S512x512_S2000x512_1_0_0_1_n_n_wf dot_S2000x512_S512x512_S2000x512_1_0_0_1_n_n_wf
      broadcasts_S1x512_S2000x512 bitsLt_bf16_f32 x0 x1 x2 x3 x4 := by
  unfold k4_pay1
  simp only [shapeCast_self]
  rfl

/-- A tile against the whole array: if row p of the tile's input is row r of the array's, entry (p, q) of the tile's
    perceptron is entry (r, q) of the array's. -/
theorem tile_row (X0 : FVec Ideal S50000x512 .f32) (x0 : FVec Ideal S2000x512 .f32) (x1 : FVec Ideal S512x512 .f32) (x2 : FVec Ideal S1x512 .f32)
    (x3 : FVec Ideal S512x512 .f32) (x4 : FVec Ideal S1x512 .f32) (p : Fin 2000) (q : Fin 512) (r : Fin 50000)
    (hrow : ∀ a : Fin 512, x0 (ix2 p a) = X0 (ix2 r a)) :
    k4_pay1 x0 x1 x2 x3 x4 (ix2 p q)
      = Cert.Mlp.mlpHost wA wB bcast_S1x512_S50000x512_0_1 bcast_S_S50000x512 X0 x1 x2 x3 x4 (ix2 r q) := by
  rw [pay_tile, Cert.Mlp.mlpTile_at, Cert.Mlp.mlpHost_at]
  exact Cert.Mlp.mlpVal_congr_row _ _ _ _ _ _ _ _ hrow _

/-- The index maps over the grid: the first window and the output window move together along the rows, every other
    block index is zero, and the row-block index stays below 25. -/
theorem idx_facts : ∀ t : Fin cfg4.N,
    win4_0.index t (0 : Fin 2) = win4_5.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 ∧ win4_5.index t (0 : Fin 2) < 25 :=
  (by decide +kernel : ∀ t : Fin grid4.N, _)

/-- Every row block is some point's. -/
theorem idx_onto : ∀ b : Fin 25, ∃ t : Fin cfg4.N, win4_5.index t = ![b.val, 0] :=
  (by decide +kernel : ∀ b : Fin 25, ∃ t : Fin grid4.N, win4_5.index t = ![b.val, 0])

/-- What point t writes back is block t of the whole-array perceptron. -/
theorem flushed_eq (c : Dev nD) (t : Fin cfg4.N) :
    (dat4 V c).flushed 5 t = ((cfg4.win 5).blk t).view.read (Elt Ideal) (whole V wA wB c) := by
  show (cfg4.win 5).cut (grid4.coords t) ((dat4 V c).after 5 t) = _
  rw [after4_5]
  unfold out4_5
  rw [View.canon_unit_zero zero2]
  simp only [View.ld_unit_zero (S := S2000x512) zero2, View.ld_unit_zero (S := S512x512) zero2, View.ld_unit_zero (S := S1x512) zero2,
    View.ld_unit_zero (S := S512x512) zero2]
  obtain ⟨e00, e01, e10, e11, e20, e21, e30, e31, e40, e41, e51, e5lt⟩ := idx_facts t
  funext j
  obtain ⟨p, q, rfl⟩ : ∃ (p : Fin 2000) (q : Fin 512), j = ix2 p q := ⟨j 0, j 1, eq_ix2 j⟩
  show k4_pay1 (iblk4 V c 0 t) (iblk4 V c 1 t) (iblk4 V c 2 t) (iblk4 V c 3 t) (iblk4 V c 4 t) (ix2 p q)
    = whole V wA wB c (((cfg4.win 5).blk t).view.emb (ix2 p q))
  have h1 : iblk4 V c 1 t = V c main_v221 := by
    funext y
    show V c main_v221 (((cfg4.win 1).blk t).view.emb y) = V c main_v221 y
    refine congrArg _ (funext fun a => Fin.ext ?_)
    match a with
    | ⟨0, _⟩ => show win4_1.index t (0 : Fin 2) * 512 + 1 * (y 0).val = (y 0).val; omega
    | ⟨1, _⟩ => show win4_1.index t (1 : Fin 2) * 512 + 1 * (y 1).val = (y 1).val; omega
  have h2 : iblk4 V c 2 t = V c main_v248 := by
    funext y
    show V c main_v248 (((cfg4.win 2).blk t).view.emb y) = V c main_v248 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 512 + 1 * (y 1).val = (y 1).val; omega
  have h3 : iblk4 V c 3 t = V c main_v225 := by
    funext y
    show V c main_v225 (((cfg4.win 3).blk t).view.emb y) = V c main_v225 y
    refine congrArg _ (funext fun a => Fin.ext ?_)
    match a with
    | ⟨0, _⟩ => show win4_3.index t (0 : Fin 2) * 512 + 1 * (y 0).val = (y 0).val; omega
    | ⟨1, _⟩ => show win4_3.index t (1 : Fin 2) * 512 + 1 * (y 1).val = (y 1).val; omega
  have h4 : iblk4 V c 4 t = V c main_v249 := by
    funext y
    show V c main_v249 (((cfg4.win 4).blk t).view.emb y) = V c main_v249 y
    refine congrArg _ (funext fun a => Fin.ext ?_)
    match a with
    | ⟨0, _⟩ => show win4_4.index t (0 : Fin 2) * 1 + 1 * (y 0).val = (y 0).val; omega
    | ⟨1, _⟩ => show win4_4.index t (1 : Fin 2) * 512 + 1 * (y 1).val = (y 1).val; omega
  have hr : win4_5.index t (0 : Fin 2) * 2000 + p.val < 50000 := by have := p.isLt; omega
  have h5 : ((cfg4.win 5).blk t).view.emb (ix2 p q) = ix2 (⟨win4_5.index t (0 : Fin 2) * 2000 + p.val, hr⟩ : Fin 50000) q := by
    funext a; apply Fin.ext
    match a with
    | ⟨0, _⟩ => show win4_5.index t (0 : Fin 2) * 2000 + 1 * p.val = win4_5.index t (0 : Fin 2) * 2000 + p.val; omega
    | ⟨1, _⟩ => show win4_5.index t (1 : Fin 2) * 512 + 1 * q.val = q.val; omega
  rw [h1, h2, h3, h4, h5]
  refine tile_row wA wB (V c main_v247) (iblk4 V c 0 t) (V c main_v221) (V c main_v248) (V c main_v225) (V c main_v249) p q _ fun a => ?_
  show V c main_v247 (((cfg4.win 0).blk t).view.emb (ix2 p a)) = V c main_v247 (ix2 _ a)
  refine congrArg _ (funext fun b => Fin.ext ?_)
  match b with
  | ⟨0, _⟩ => show win4_0.index t (0 : Fin 2) * 2000 + 1 * p.val = win4_5.index t (0 : Fin 2) * 2000 + p.val; omega
  | ⟨1, _⟩ => show win4_0.index t (1 : Fin 2) * 512 + 1 * a.val = a.val; omega

/-- An entry of the result array lies in point t's block iff its coordinates lie in the block's ranges. -/
theorem mem_blk (t : Fin cfg4.N) (i : S50000x512.Idx) :
    i ∈ ((cfg4.win 5).blk t).view.set ↔ ∀ a : Fin 2, win4_5.index t a * S2000x512.size a ≤ (i a).val ∧ (i a).val < win4_5.index t a * S2000x512.size a + S2000x512.size a := by
  show i ∈ ((View.whole main_v250).slice (win4_5.rect t)).set ↔ _
  rw [View.set_slice_whole, Rect.mem_set_unit]
  exact Iff.rfl

/-- The result array after the region: the whole-array perceptron of the arrays it was entered with. -/
theorem final (c : Dev nD) : (dat4 V c).arrAt 5 cfg4.N = whole V wA wB c :=
  (dat4 V c).arrAt_eq_of_cover 5 (whole V wA wB c) (fun t _ => flushed_eq V wA wB c t) fun i => by
    have hi0 : (i 0).val < 50000 := (i 0).isLt
    have hi1 : (i 1).val < 512 := (i 1).isLt
    obtain ⟨t, ht⟩ := idx_onto ⟨(i 0).val / 2000, by omega⟩
    have q0 : win4_5.index t (0 : Fin 2) = (i 0).val / 2000 := congrFun ht 0
    have q1 : win4_5.index t (1 : Fin 2) = 0 := congrFun ht 1
    refine ⟨t, flush4_5 t, ?_⟩
    rw [mem_blk]
    intro a
    match a with
    | ⟨0, _⟩ => show win4_5.index t (0 : Fin 2) * 2000 ≤ (i 0).val ∧ (i 0).val < win4_5.index t (0 : Fin 2) * 2000 + 2000; omega
    | ⟨1, _⟩ => show win4_5.index t (1 : Fin 2) * 512 ≤ (i 1).val ∧ (i 1).val < win4_5.index t (1 : Fin 2) * 512 + 512; omega

end Cert.KernelIdeal.Region4

end
-- ==== Proof.Bridge4.lean ====
/-
  Block 5: the kernel's fifth region ends at the reference's fifth perceptron output.

  Between the previous region and this one both programs normalise the previous output column by column (the mean
  over the 50000 rows, the centred square's mean, the reciprocal square root of that plus a small constant, the scale
  and shift rows of this block), gather the source rows of the result, sum them into the target rows and add the
  result: the same operations on equal inputs, given that the previous outputs are equal. The kernel's stretch reads the
  previous region's result array, the scale and shift rows it sliced in the stretch before, the two index vectors of
  the first stretch and four parameter arrays; each is walked back to where it was written. The reference then applies
  the perceptron on the host, the kernel through its region; a bias reshaped to one row is the bias broadcast along a
  new unit axis.
-/
import proofs.«145081_j2018634629569_1_alg».proof.Proof.Gen.KernelIdeal.Frame
import proofs.«145081_j2018634629569_1_alg».proof.Proof.Gen.ReferenceIdeal.Run
import proofs.«145081_j2018634629569_1_alg».proof.Proof.LibMlpAt
import proofs.«145081_j2018634629569_1_alg».proof.Proof.Leaves
import proofs.«145081_j2018634629569_1_alg».proof.Proof.Region4
import proofs.«145081_j2018634629569_1_alg».proof.Proof.BridgeBase

set_option maxRecDepth 16384

noncomputable section

namespace Cert.Bridge

open Cert.KernelIdeal Cert.KernelIdeal.Gen
open Cert.ReferenceIdeal.Value (res_main_v1 res_main_v3 res_main_v230 res_main_v233 res_main_v236 res_main_v255 res_main_v295)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)
variable (V0' : Valuation Cert.ReferenceIdeal.τ Cert.ReferenceIdeal.sig (Elt Ideal))

set_option maxHeartbeats 4000000 in
/-- Given the previous region's result, the perceptron of the arrays this region is entered with is the reference's
    perceptron output of this block. -/
theorem stage4 (hag : Agree m c V0') (hprev : W8 m ρ c (Proc.devRef .tc main_v194) = res_main_v230 V0') :
    Region4.whole (V9 m ρ) Cert.ReferenceIdeal.Gen.dot_S50000x512_S512x512_S50000x512_1_0_0_1_n_n_wf
      Cert.ReferenceIdeal.Gen.dot_S50000x512_S512x512_S50000x512_1_0_0_1_n_n_wf c = res_main_v295 V0' := by
  unfold res_main_v295 res_main_v255 res_main_v236 res_main_v233
  show Cert.Mlp.mlpHost _ _ bcast_S1x512_S50000x512_0_1 bcast_S_S50000x512
      (W9 m ρ c (Proc.devRef .tc main_v247)) (W9 m ρ c (Proc.devRef .tc main_v221)) (W9 m ρ c (Proc.devRef .tc main_v248))
      (W9 m ρ c (Proc.devRef .tc main_v225)) (W9 m ρ c (Proc.devRef .tc main_v249)) = _
  simp only [W9, hostOps4]
  after_results_simp
  rw [hprev, Leaves.first8 m ρ c main_v1 (by decide), Leaves.first8 m ρ c main_v3 (by decide),
    v1_eq m ρ c V0' hag, v3_eq m ρ c V0' hag,
    Leaves.at8 m ρ c main_arg7 (by decide), Leaves.at8 m ρ c main_arg8 (by decide), Leaves.at8 m ρ c main_arg9 (by decide), Leaves.at8 m ρ c main_arg10 (by decide),
    W8_of_ne m ρ c main_v173 (by decide), W8_of_ne m ρ c main_v175 (by decide)]
  simp only [W7, hostOps3]
  after_results_simp
  rw [Leaves.at6 m ρ c main_arg11 (by decide), Leaves.at6 m ρ c main_arg12 (by decide)]
  rw [hag.a7, hag.a8, hag.a9, hag.a10, hag.a11, hag.a12]
  refine (Cert.Mlp.mlpHost_rowCast _ _ _ _ bcast_S512_S1x512_1 shapeCasts_S512_S1x512 _ _ _ _ _).trans ?_
  rfl

/-- So this region's result array is the reference's perceptron output of this block. -/
theorem out4 (hag : Agree m c V0') (hprev : W8 m ρ c (Proc.devRef .tc main_v194) = res_main_v230 V0') :
    W10 m ρ c (Proc.devRef .tc main_v250) = res_main_v295 V0' :=
  (W10_arr m ρ c 5).trans ((Region4.final (V9 m ρ) _ _ c).trans (stage4 m ρ c V0' hag hprev))

end Cert.Bridge

end
-- ==== Proof.Tail.lean ====
/-
  The tail: after the fifth region both programs finish alike.

  Both normalise the fifth perceptron output column by column with the fifth scale and shift rows, sum the rows of
  each graph (a scatter-add along the graph assignment), count each graph's rows the same way, divide by the count
  (at least one), multiply by the last weight matrix, add the last bias and take the hyperbolic tangent: the same
  operations on equal inputs, given that the fifth perceptron outputs are equal. The kernel's last stretch reads the
  fifth region's result array, the scale and shift rows sliced in the stretch before, and three arguments.
-/
import proofs.«145081_j2018634629569_1_alg».proof.Proof.Gen.KernelIdeal.Frame
import proofs.«145081_j2018634629569_1_alg».proof.Proof.Gen.ReferenceIdeal.Run
import proofs.«145081_j2018634629569_1_alg».proof.Proof.Leaves
import proofs.«145081_j2018634629569_1_alg».proof.Proof.BridgeBase

set_option maxRecDepth 16384

noncomputable section

namespace Cert.Bridge

open Cert.KernelIdeal Cert.KernelIdeal.Gen
open Cert.ReferenceIdeal.Value (res_main_v295 res_main_v298 res_main_v301)
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
variable (V0' : Valuation Cert.ReferenceIdeal.τ Cert.ReferenceIdeal.sig (Elt Ideal))

set_option maxHeartbeats 4000000 in
/-- Given the fifth region's result, the kernel's result array is the reference's. -/
theorem tail (hag : Agree m c V0') (hprev : W10 m ρ c (Proc.devRef .tc main_v250) = res_main_v295 V0') :
    W11 m ρ c (Proc.devRef .tc main_v292)
      = Cert.ReferenceIdeal.Value.val7 V0' (Proc.devRef .tc Cert.ReferenceIdeal.main_v337) := by
  rw [Cert.ReferenceIdeal.Value.val7_main_v337]
  unfold res_main_v301 res_main_v298
  simp only [W11, hostOps5]
  after_results_simp
  rw [hprev, Leaves.at10 m ρ c main_arg2 (by decide), Leaves.at10 m ρ c main_arg13 (by decide), Leaves.at10 m ρ c main_arg14 (by decide),
    W10_of_ne m ρ c main_v229 (by decide), W10_of_ne m ρ c main_v231 (by decide)]
  simp only [W9, hostOps4]
  after_results_simp
  rw [Leaves.at8 m ρ c main_arg11 (by decide), Leaves.at8 m ρ c main_arg12 (by decide)]
  rw [hag.a2, hag.a11, hag.a12, hag.a13, hag.a14]
  rfl

end Cert.Bridge

end
-- ==== Proof.lean ====
/-
  A five-block graph network: the kernel's five pipelined perceptrons against the reference's host perceptrons.

  Each block sums every node's neighbours into it (a gather along the source indices, a scatter-add along the target
  indices), applies a two-layer rectified perceptron to the 50000 node rows, and normalises the columns over all rows.
  After five blocks the rows of each graph are averaged, multiplied by a last matrix, shifted, and passed through the
  hyperbolic tangent. The reference does all of it with host operations. The kernel does the perceptron of each block
  in a pipelined region over 25 row blocks of 2000 rows, narrowing the matrix products' operands to bf16, and everything
  else with the same host operations.

  At the ideal values a change of float format is the identity and a matrix product is the plain sum over the
  contracted coordinate, whichever way the rows are tiled; an entry of the perceptron's output depends on its own row of
  the input only. So each region's result array is the host perceptron of the arrays the region is entered with
  (Region0 … Region4), the stretches of host operations between the regions compute the same terms in both programs
  (Bridge0 … Bridge4, Tail: the kernel's buffers walked back to where they were written, Leaves), and the two results
  are equal entry by entry. No law used needs the inputs to be finite: the precondition is never opened.

  The three frames: the kernel's two are the generated frames; the reference's is its generated run with the result
  dropped. The ideal pass rewrote nothing, so the kernel's idealization is the kernel's own text read at the ideal
  values.
-/
import proofs.«145081_j2018634629569_1_alg».proof.Defs
import proofs.«145081_j2018634629569_1_alg».proof.Proof.Gen.Kernel
import proofs.«145081_j2018634629569_1_alg».proof.Proof.Gen.Kernel.Frame
import proofs.«145081_j2018634629569_1_alg».proof.Proof.Gen.KernelIdeal
import proofs.«145081_j2018634629569_1_alg».proof.Proof.Gen.KernelIdeal.Frame
import proofs.«145081_j2018634629569_1_alg».proof.Proof.Gen.ReferenceIdeal
import proofs.«145081_j2018634629569_1_alg».proof.Proof.Gen.ReferenceIdeal.Run
import proofs.«145081_j2018634629569_1_alg».proof.Proof.Gen.Pre_finite_inputs
import proofs.«145081_j2018634629569_1_alg».proof.Proof.KernelRun
import proofs.«145081_j2018634629569_1_alg».proof.Proof.Bridge0
import proofs.«145081_j2018634629569_1_alg».proof.Proof.Bridge1
import proofs.«145081_j2018634629569_1_alg».proof.Proof.Bridge2
import proofs.«145081_j2018634629569_1_alg».proof.Proof.Bridge3
import proofs.«145081_j2018634629569_1_alg».proof.Proof.Bridge4
import proofs.«145081_j2018634629569_1_alg».proof.Proof.Tail
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments the kernel's result array, the last boundary's contents at the result
    buffer, is the reference's result: block by block the five perceptron outputs agree, then the tails. -/
theorem algebraic : Cert.algebraic_KernelIdeal_ReferenceIdeal := by
  intro m ρ m' ρ' _ hagree
  refine ⟨fun c => Cert.KernelIdeal.Gen.W11 m ρ c (Proc.devRef .tc Cert.KernelIdeal.main_v292),
    Cert.KernelIdeal.Result.run_result (F := Ideal) m ρ, ?_⟩
  refine (θ_run Cert.ReferenceIdeal.defs _ _).mono (fun _ h c => ⟨(h c).1.trans ?_, (h c).2⟩)
    (Cert.ReferenceIdeal.Value.run (F := Ideal) m' ρ')
  have hag : Cert.Bridge.Agree m c (StableHlo.launchContents m' c) :=
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2⟩
  have e0 := Cert.Bridge.out0 m ρ c _ hag
  have e1 := Cert.Bridge.out1 m ρ c _ hag e0
  have e2 := Cert.Bridge.out2 m ρ c _ hag e1
  have e3 := Cert.Bridge.out3 m ρ c _ hag e2
  have e4 := Cert.Bridge.out4 m ρ c _ hag e3
  exact (Cert.ReferenceIdeal.Value.val7_main_v337 _).symm.trans (Cert.Bridge.tail m ρ c _ hag e4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
